-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S400000x64 : Shape := ⟨2, ![400000, 64]⟩
abbrev S128x256 : Shape := ⟨2, ![128, 256]⟩
abbrev S256 : Shape := ⟨1, ![256]⟩
abbrev S256x256 : Shape := ⟨2, ![256, 256]⟩
abbrev S576x256 : Shape := ⟨2, ![576, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S576x256 : S_.BroadcastsInDim S576x256 (![] : Fin 0 → Fin S576x256.rank)
  reducesTo_S576x256_S_d0_1 : S576x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x1 .f32) (main_arg14 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S256 .f32) (main_arg9 : FVec F S576x256 .f32) (main_arg10 : FVec F S256 .f32) (main_arg11 : FVec F S256x128 .f32) (main_arg12 : FVec F S128 .f32) (main_arg13 : FVec F S128x1 .f32) (main_arg14 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S576x256 .f32 := Host.absf main_arg9
  let main_cst_14 : FVec F S_ .f32 := constant S_ .f32 0x7F800000#32
  let main_v40 : FVec F S576x256 .f32 := broadcastInDim S576x256 ![] bcast_S_S576x256 main_cst_14
  let main_v41 : IVec S576x256 1 := cmpf .olt main_v39 main_v40
  let main_c_15 : IVec S_ 1 := constantI S_ 1 1#1
  let main_v42 : IVec S_ 1 := (fun x v => Host.reduce IntOp.andi x v reducesTo_S576x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S256 .f32) (main_arg6 : FVec F S256x256 .f32) (main_arg7 : FVec F S256x256 .f32) (main_arg8 : FVec F S256 .f32) (main_arg9 : FVec F S576x256 .f32) (main_arg10 : FVec F S256 .f32) (main_arg11 : FVec F S256x128 .f32) (main_arg12 : FVec F S128 .f32) (main_arg13 : FVec F S128x1 .f32) (main_arg14 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x400000 32) (main_arg2 : FVec F S400000x64 .f32) (main_arg3 : FVec F S128x256 .f32) (main_arg4 : FVec F S128x256 .f32) (main_arg5 : FVec F S256 .f32) (main_arg6 : FVec F S256x256 .f32) (main_arg7 : FVec F S256x256 .f32) (main_arg8 : FVec F S256 .f32) (main_arg9 : FVec F S576x256 .f32) (main_arg10 : FVec F S256 .f32) (main_arg11 : FVec F S256x128 .f32) (main_arg12 : FVec F S128 .f32) (main_arg13 : FVec F S128x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x64 .f32 := Host.absf main_arg2
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x400000 : Shape := ⟨2, ![2, 400000]⟩
abbrev S400000x64 : Shape := ⟨2, ![400000, 64]⟩
abbrev S128x256 : Shape := ⟨2, ![128, 256]⟩
abbrev S256 : Shape := ⟨1, ![256]⟩
abbrev S256x256 : Shape := ⟨2, ![256, 256]⟩
abbrev S576x256 : Shape := ⟨2, ![576, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S50000x1 : Shape := ⟨2, ![50000, 1]⟩
abbrev S400000x128 : Shape := ⟨2, ![400000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S400000x256 : Shape := ⟨2, ![400000, 256]⟩
abbrev S64x256 : Shape := ⟨2, ![64, 256]⟩
abbrev S1x128 : Shape := ⟨2, ![1, 128]⟩
abbrev S1x1 : Shape := ⟨2, ![1, 1]⟩
abbrev S4000x256 : Shape := ⟨2, ![4000, 256]⟩
abbrev S4000x64 : Shape := ⟨2, ![4000, 64]⟩
abbrev S4000x1 : Shape := ⟨2, ![4000, 1]⟩
abbrev S4000x128 : Shape := ⟨2, ![4000, 128]⟩
abbrev S4000 : Shape := ⟨1, ![4000]⟩

abbrev nBuf : Space → Nat
  | .hbm => 105
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S400000x64, .f32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S576x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1x400000, .i32⟩
  | .hbm, ⟨16, _⟩ => ⟨S400000, .i32⟩
  | .hbm, ⟨17, _⟩ => ⟨S1x400000, .i32⟩
  | .hbm, ⟨18, _⟩ => ⟨S400000, .i32⟩
  | .hbm, ⟨19, _⟩ => ⟨S_, .f32⟩
  | .hbm, ⟨20, _⟩ => ⟨S400000x1, .f32⟩
  | .hbm, ⟨21, _⟩ => ⟨S_, .f32⟩
  | .hbm, ⟨22, _⟩ => ⟨S50000x1, .f32⟩
  | .hbm, ⟨23, _⟩ => ⟨S400000x1, .i32⟩
  | .hbm, ⟨24, _⟩ => ⟨S50000x1, .f32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000x128, .f32⟩
  | .hbm, ⟨34, _⟩ => ⟨S_, .f32⟩
  | .hbm, ⟨35, _⟩ => ⟨S50000x128, .f32⟩
  | .hbm, ⟨36, _⟩ => ⟨S400000x1, .i32⟩
  | .hbm, ⟨37, _⟩ => ⟨S50000x128, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x128, .bf16⟩
  | .hbm, ⟨44, _⟩ => ⟨S50000x128, .bf16⟩
  | .hbm, ⟨45, _⟩ => ⟨S128x256, .bf16⟩
  | .hbm, ⟨46, _⟩ => ⟨S128x256, .bf16⟩
  | .hbm, ⟨47, _⟩ => ⟨S1x256, .f32⟩
  | .hbm, ⟨48, _⟩ => ⟨S50000x256, .f32⟩
  | .hbm, ⟨49, _⟩ => ⟨S_, .i32⟩
  | .hbm, ⟨50, _⟩ => ⟨S400000, .i32⟩
  | .hbm, ⟨51, _⟩ => ⟨S400000, .i1⟩
  | .hbm, ⟨52, _⟩ => ⟨S_, .i32⟩
  | .hbm, ⟨53, _⟩ => ⟨S400000, .i32⟩
  | .hbm, ⟨54, _⟩ => ⟨S400000, .i32⟩
  | .hbm, ⟨55, _⟩ => ⟨S400000, .i32⟩
  | .hbm, ⟨56, _⟩ => ⟨S400000x1, .i32⟩
  | .hbm, ⟨57, _⟩ => ⟨S400000x256, .f32⟩
  | .hbm, ⟨58, _⟩ => ⟨S_, .f32⟩
  | .hbm, ⟨59, _⟩ => ⟨S50000x256, .f32⟩
  | .hbm, ⟨60, _⟩ => ⟨S400000x1, .i32⟩
  | .hbm, ⟨61, _⟩ => ⟨S50000x256, .f32⟩
  | .hbm, ⟨62, _⟩ => ⟨S_, .f32⟩
  | .hbm, ⟨63, _⟩ => ⟨S50000x1, .f32⟩
  | .hbm, ⟨64, _⟩ => ⟨S50000x1, .f32⟩
  | .hbm, ⟨65, _⟩ => ⟨S50000x256, .f32⟩
  | .hbm, ⟨66, _⟩ => ⟨S50000x256, .f32⟩
  | .hbm, ⟨67, _⟩ => ⟨S256x256, .f32⟩
  | .hbm, ⟨68, _⟩ => ⟨S256x256, .f32⟩
  | .hbm, ⟨69, _⟩ => ⟨S64x256, .f32⟩
  | .hbm, ⟨70, _⟩ => ⟨S50000x256, .bf16⟩
  | .hbm, ⟨71, _⟩ => ⟨S50000x256, .bf16⟩
  | .hbm, ⟨72, _⟩ => ⟨S256x256, .bf16⟩
  | .hbm, ⟨73, _⟩ => ⟨S256x256, .bf16⟩
  | .hbm, ⟨74, _⟩ => ⟨S256x256, .bf16⟩
  | .hbm, ⟨75, _⟩ => ⟨S256x256, .bf16⟩
  | .hbm, ⟨76, _⟩ => ⟨S1x256, .f32⟩
  | .hbm, ⟨77, _⟩ => ⟨S50000x256, .bf16⟩
  | .hbm, ⟨78, _⟩ => ⟨S50000x256, .bf16⟩
  | .hbm, ⟨79, _⟩ => ⟨S_, .i32⟩
  | .hbm, ⟨80, _⟩ => ⟨S400000, .i32⟩
  | .hbm, ⟨81, _⟩ => ⟨S400000, .i1⟩
  | .hbm, ⟨82, _⟩ => ⟨S_, .i32⟩
  | .hbm, ⟨83, _⟩ => ⟨S400000, .i32⟩
  | .hbm, ⟨84, _⟩ => ⟨S400000, .i32⟩
  | .hbm, ⟨85, _⟩ => ⟨S400000, .i32⟩
  | .hbm, ⟨86, _⟩ => ⟨S400000x1, .i32⟩
  | .hbm, ⟨87, _⟩ => ⟨S400000x256, .bf16⟩
  | .hbm, ⟨88, _⟩ => ⟨S_, .i32⟩
  | .hbm, ⟨89, _⟩ => ⟨S400000, .i32⟩
  | .hbm, ⟨90, _⟩ => ⟨S400000, .i1⟩
  | .hbm, ⟨91, _⟩ => ⟨S_, .i32⟩
  | .hbm, ⟨92, _⟩ => ⟨S400000, .i32⟩
  | .hbm, ⟨93, _⟩ => ⟨S400000, .i32⟩
  | .hbm, ⟨94, _⟩ => ⟨S400000, .i32⟩
  | .hbm, ⟨95, _⟩ => ⟨S400000x1, .i32⟩
  | .hbm, ⟨96, _⟩ => ⟨S400000x256, .bf16⟩
  | .hbm, ⟨97, _⟩ => ⟨S1x128, .f32⟩
  | .hbm, ⟨98, _⟩ => ⟨S64x256, .bf16⟩
  | .hbm, ⟨99, _⟩ => ⟨S256x128, .bf16⟩
  | .hbm, ⟨100, _⟩ => ⟨S1x256, .f32⟩
  | .hbm, ⟨101, _⟩ => ⟨S1x128, .f32⟩
  | .hbm, ⟨102, _⟩ => ⟨S1x1, .f32⟩
  | .hbm, ⟨103, _⟩ => ⟨S400000x1, .f32⟩
  | .hbm, ⟨104, _⟩ => ⟨S400000, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S256x256, .bf16⟩
  | .local _ .vmem, ⟨17, _⟩ => ⟨S256x256, .bf16⟩
  | .local _ .vmem, ⟨18, _⟩ => ⟨S2000x256, .bf16⟩
  | .local _ .vmem, ⟨19, _⟩ => ⟨S2000x256, .bf16⟩
  | .local _ .vmem, ⟨20, _⟩ => ⟨S2000x256, .bf16⟩
  | .local _ .vmem, ⟨21, _⟩ => ⟨S2000x256, .bf16⟩
  | .local _ .vmem, ⟨22, _⟩ => ⟨S4000x256, .bf16⟩
  | .local _ .vmem, ⟨23, _⟩ => ⟨S4000x256, .bf16⟩
  | .local _ .vmem, ⟨24, _⟩ => ⟨S4000x256, .bf16⟩
  | .local _ .vmem, ⟨25, _⟩ => ⟨S4000x256, .bf16⟩
  | .local _ .vmem, ⟨26, _⟩ => ⟨S4000x64, .f32⟩
  | .local _ .vmem, ⟨27, _⟩ => ⟨S4000x64, .f32⟩
  | .local _ .vmem, ⟨28, _⟩ => ⟨S64x256, .bf16⟩
  | .local _ .vmem, ⟨29, _⟩ => ⟨S1x256, .f32⟩
  | .local _ .vmem, ⟨30, _⟩ => ⟨S256x128, .bf16⟩
  | .local _ .vmem, ⟨31, _⟩ => ⟨S1x128, .f32⟩
  | .local _ .vmem, ⟨32, _⟩ => ⟨S1x128, .f32⟩
  | .local _ .vmem, ⟨33, _⟩ => ⟨S1x1, .f32⟩
  | .local _ .vmem, ⟨34, _⟩ => ⟨S4000x1, .f32⟩
  | .local _ .vmem, ⟨35, _⟩ => ⟨S4000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52_0 : Ref sig .tc := ⟨.hbm, 77, rfl⟩
abbrev main_v52_1 : Ref sig .tc := ⟨.hbm, 78, rfl⟩
abbrev main_c_8 : Ref sig .tc := ⟨.hbm, 79, rfl⟩
abbrev main_v53 : Ref sig .tc := ⟨.hbm, 80, rfl⟩
abbrev main_v54 : Ref sig .tc := ⟨.hbm, 81, rfl⟩
abbrev main_c_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_v61 : Ref sig .tc := ⟨.hbm, 90, rfl⟩
abbrev main_c_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000x1 : S_.BroadcastsInDim S400000x1 (![] : Fin 0 → Fin S400000x1.rank)
  bcast_S_S50000x1 : S_.BroadcastsInDim S50000x1 (![] : Fin 0 → Fin S50000x1.rank)
  bcast_S400000_S400000x1_0 : S400000.BroadcastsInDim S400000x1 (![0] : Fin 1 → Fin S400000x1.rank)
  bcast_S_S400000 : S_.BroadcastsInDim S400000 (![] : Fin 0 → Fin S400000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S576x256_S256x256_0_0 : S576x256.Slices ![0, 0] S256x256
  slices_S576x256_S256x256_256_0 : S576x256.Slices ![256, 0] S256x256
  slices_S576x256_S64x256_512_0 : S576x256.Slices ![512, 0] S64x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S2000x256_S2000x256_0_0 : (Rect.unit (s := S2000x256) ![0, 0] S2000x256.size inb_S2000x256_S2000x256_0_0).PackedRows (EltTy.packing .bf16)
  transposes_S128x1_S1x128_1_0 : S128x1.Transposes [1, 0] S1x128
  shapeCasts_S128_S1x128 : S128.ShapeCasts S1x128
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S400000x1_S400000 : S400000x1.ShapeCasts S400000
  scatter_S50000x1_S400000x1_S400000x1_1_0_0_1_wf : ScatterDims.WF S50000x1 S400000x1 S400000x1 [1] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S2000x128_S128x256_S2000x256_1_0_0_1_n_n_wf : DotDims.WF S2000x128 S128x256 S2000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x256_S2000x256_1_0_0_1_n_n_wf : DotDims.WF S2000x256 S256x256 S2000x256 [1] [0] [0] [1] [] []
  dot_S4000x64_S64x256_S4000x256_1_0_0_1_n_n_wf : DotDims.WF S4000x64 S64x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .bf16 = 32 ∨ (Rect.block (s := S256x256) S256x256.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .bf16 = 32 ∨ (Rect.block (s := S50000x256) S2000x256.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .bf16 = 32 ∨ (Rect.block (s := S50000x256) S2000x256.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S400000x256.size a
  hwx2_0 : ∀ i : grid2.Coords, EltTy.bits .bf16 = 32 ∨ (Rect.block (s := S400000x256) S4000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S400000x256.size a
  hwx2_1 : ∀ i : grid2.Coords, EltTy.bits .bf16 = 32 ∨ (Rect.block (s := S400000x256) S4000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S400000x64.size a
  hwx2_2 : ∀ i : grid2.Coords, EltTy.bits .f32 = 32 ∨ (Rect.block (s := S400000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x256.size a ≤ S64x256.size a
  hwx2_3 : ∀ i : grid2.Coords, EltTy.bits .bf16 = 32 ∨ (Rect.block (s := S64x256) S64x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .bf16 = 32 ∨ (Rect.block (s := S256x128) S256x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x1.size a ≤ S400000x1.size a
  hwx2_9 : ∀ i : grid2.Coords, EltTy.bits .f32 = 32 ∨ (Rect.block (s := S400000x1) S4000x1.size (cc2_transform_9 i) (hinb2_9 i)).WholeWords (EltTy.packing .f32)

variable [Facts₀]

def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v52_0) S2000x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v52_1) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v59) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v68) S64x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v72) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v73) S4000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S400000x64 : Shape := ⟨2, ![400000, 64]⟩
abbrev S128x256 : Shape := ⟨2, ![128, 256]⟩
abbrev S256 : Shape := ⟨1, ![256]⟩
abbrev S256x256 : Shape := ⟨2, ![256, 256]⟩
abbrev S576x256 : Shape := ⟨2, ![576, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S50000x1 : Shape := ⟨2, ![50000, 1]⟩
abbrev S50000x256 : Shape := ⟨2, ![50000, 256]⟩
abbrev S1x256 : Shape := ⟨2, ![1, 256]⟩
abbrev S400000x256 : Shape := ⟨2, ![400000, 256]⟩
abbrev S400000x576 : Shape := ⟨2, ![400000, 576]⟩
abbrev S1x128 : Shape := ⟨2, ![1, 128]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S400000x64, .f32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S576x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1x400000, .i32⟩
  | .hbm, ⟨16, _⟩ => ⟨S400000, .i32⟩
  | .hbm, ⟨17, _⟩ => ⟨S1x400000, .i32⟩
  | .hbm, ⟨18, _⟩ => ⟨S400000, .i32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000x128, .f32⟩
  | .hbm, ⟨28, _⟩ => ⟨S_, .f32⟩
  | .hbm, ⟨29, _⟩ => ⟨S50000x128, .f32⟩
  | .hbm, ⟨30, _⟩ => ⟨S400000x1, .i32⟩
  | .hbm, ⟨31, _⟩ => ⟨S50000x128, .f32⟩
  | .hbm, ⟨32, _⟩ => ⟨S_, .f32⟩
  | .hbm, ⟨33, _⟩ => ⟨S400000x1, .f32⟩
  | .hbm, ⟨34, _⟩ => ⟨S_, .f32⟩
  | .hbm, ⟨35, _⟩ => ⟨S50000x1, .f32⟩
  | .hbm, ⟨36, _⟩ => ⟨S400000x1, .i32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S50000x256, .f32⟩
  | .hbm, ⟨51, _⟩ => ⟨S50000x256, .f32⟩
  | .hbm, ⟨52, _⟩ => ⟨S_, .i32⟩
  | .hbm, ⟨53, _⟩ => ⟨S400000, .i32⟩
  | .hbm, ⟨54, _⟩ => ⟨S400000, .i1⟩
  | .hbm, ⟨55, _⟩ => ⟨S_, .i32⟩
  | .hbm, ⟨56, _⟩ => ⟨S400000, .i32⟩
  | .hbm, ⟨57, _⟩ => ⟨S400000, .i32⟩
  | .hbm, ⟨58, _⟩ => ⟨S400000, .i32⟩
  | .hbm, ⟨59, _⟩ => ⟨S400000x1, .i32⟩
  | .hbm, ⟨60, _⟩ => ⟨S400000x256, .f32⟩
  | .hbm, ⟨61, _⟩ => ⟨S_, .f32⟩
  | .hbm, ⟨62, _⟩ => ⟨S50000x256, .f32⟩
  | .hbm, ⟨63, _⟩ => ⟨S400000x1, .i32⟩
  | .hbm, ⟨64, _⟩ => ⟨S50000x256, .f32⟩
  | .hbm, ⟨65, _⟩ => ⟨S_, .f32⟩
  | .hbm, ⟨66, _⟩ => ⟨S400000x1, .f32⟩
  | .hbm, ⟨67, _⟩ => ⟨S_, .f32⟩
  | .hbm, ⟨68, _⟩ => ⟨S50000x1, .f32⟩
  | .hbm, ⟨69, _⟩ => ⟨S400000x1, .i32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S_, .i32⟩
  | .hbm, ⟨83, _⟩ => ⟨S400000, .i32⟩
  | .hbm, ⟨84, _⟩ => ⟨S400000, .i1⟩
  | .hbm, ⟨85, _⟩ => ⟨S_, .i32⟩
  | .hbm, ⟨86, _⟩ => ⟨S400000, .i32⟩
  | .hbm, ⟨87, _⟩ => ⟨S400000, .i32⟩
  | .hbm, ⟨88, _⟩ => ⟨S400000, .i32⟩
  | .hbm, ⟨89, _⟩ => ⟨S400000x1, .i32⟩
  | .hbm, ⟨90, _⟩ => ⟨S400000x256, .f32⟩
  | .hbm, ⟨91, _⟩ => ⟨S_, .i32⟩
  | .hbm, ⟨92, _⟩ => ⟨S400000, .i32⟩
  | .hbm, ⟨93, _⟩ => ⟨S400000, .i1⟩
  | .hbm, ⟨94, _⟩ => ⟨S_, .i32⟩
  | .hbm, ⟨95, _⟩ => ⟨S400000, .i32⟩
  | .hbm, ⟨96, _⟩ => ⟨S400000, .i32⟩
  | .hbm, ⟨97, _⟩ => ⟨S400000, .i32⟩
  | .hbm, ⟨98, _⟩ => ⟨S400000x1, .i32⟩
  | .hbm, ⟨99, _⟩ => ⟨S400000x256, .f32⟩
  | .hbm, ⟨100, _⟩ => ⟨S400000x576, .f32⟩
  | .hbm, ⟨101, _⟩ => ⟨S400000x256, .f32⟩
  | .hbm, ⟨102, _⟩ => ⟨S1x256, .f32⟩
  | .hbm, ⟨103, _⟩ => ⟨S400000x256, .f32⟩
  | .hbm, ⟨104, _⟩ => ⟨S400000x256, .f32⟩
  | .hbm, ⟨105, _⟩ => ⟨S_, .f32⟩
  | .hbm, ⟨106, _⟩ => ⟨S400000x256, .f32⟩
  | .hbm, ⟨107, _⟩ => ⟨S400000x256, .f32⟩
  | .hbm, ⟨108, _⟩ => ⟨S400000x128, .f32⟩
  | .hbm, ⟨109, _⟩ => ⟨S1x128, .f32⟩
  | .hbm, ⟨110, _⟩ => ⟨S400000x128, .f32⟩
  | .hbm, ⟨111, _⟩ => ⟨S400000x128, .f32⟩
  | .hbm, ⟨112, _⟩ => ⟨S_, .f32⟩
  | .hbm, ⟨113, _⟩ => ⟨S400000x128, .f32⟩
  | .hbm, ⟨114, _⟩ => ⟨S400000x128, .f32⟩
  | .hbm, ⟨115, _⟩ => ⟨S400000x1, .f32⟩
  | .hbm, ⟨116, _⟩ => ⟨S1x1, .f32⟩
  | .hbm, ⟨117, _⟩ => ⟨S400000x1, .f32⟩
  | .hbm, ⟨118, _⟩ => ⟨S400000x1, .f32⟩
  | .hbm, ⟨119, _⟩ => ⟨S400000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call0_cst : Ref sig .tc := ⟨.hbm, 49, rfl⟩
abbrev main_call0_v0 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_c_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call1_cst : Ref sig .tc := ⟨.hbm, 105, rfl⟩
abbrev main_call1_v0 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call2_cst : Ref sig .tc := ⟨.hbm, 112, rfl⟩
abbrev main_call2_v0 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S400000x256_S400000x256_S400000x64_S400000x576_d1 : Shape.Concatenates [S400000x256, S400000x256, S400000x64] S400000x576 1
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  shapeCasts_S400000x1_S400000 : S400000x1.ShapeCasts S400000
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  dot_S50000x128_S128x256_S50000x256_1_0_0_1_n_n_wf : DotDims.WF S50000x128 S128x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x256_S50000x256_1_0_0_1_n_n_wf : DotDims.WF S50000x256 S256x256 S50000x256 [1] [0] [0] [1] [] []
  dot_S400000x576_S576x256_S400000x256_1_0_0_1_n_n_wf : DotDims.WF S400000x576 S576x256 S400000x256 [1] [0] [0] [1] [] []
  dot_S400000x256_S256x128_S400000x128_1_0_0_1_n_n_wf : DotDims.WF S400000x256 S256x128 S400000x128 [1] [0] [0] [1] [] []
  dot_S400000x128_S128x1_S400000x1_1_0_0_1_n_n_wf : DotDims.WF S400000x128 S128x1 S400000x1 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S400000x576_S576x256_S400000x256_1_0_0_1_n_n : DotDims S400000x576 S576x256 S400000x256 where
  lhsContracting := [1]
  rhsContracting := [0]
  lhsNonContracting := [0]
  rhsNonContracting := [1]
  lhsBatch := []
  rhsBatch := []
  wf := dot_S400000x576_S576x256_S400000x256_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf

class Facts : Prop extends Facts₀ where

variable [Facts]
-- ==== Proof.RefImports.lean ====
/-
  The reference's run and its stages read one operation at a time, gathered under one import for the
  modules that speak about the reference.
-/
import proofs.«137966_j70282844831970_2_alg».proof.Proof.Gen.ReferenceIdeal.Read
-- ==== Proof.KRun.lean ====
/-
  The idealized kernel program's run with its final memory named.

  @main is seven segments: four stretches of host operations around three pallas_call regions.  The buffer
  contents at each segment boundary are a fold from the launch memory (the generated `Gen.W0 … Gen.W7`): a
  stretch applies its operations, a region replaces its windows' arrays by what its write-backs leave.  Every
  weakly fair execution terminates with every unscoped buffer at the last boundary's contents `Gen.W7`; in
  particular the result buffer holds `Gen.W7` there and each argument array its launch contents.
-/
import proofs.«137966_j70282844831970_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last segment boundary's contents. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run read at the result buffer and at the fifteen argument arrays. -/
theorem run_result : θ_run defs (onTc (τ := τ) (main (F := F))) ⟨m, fun _ => 0, ρ⟩ (fun r => ∀ c : Dev nD,
      r.2.mem ((c.tc : Thread nD τ).loc main_v74) = W7 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v74 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c)⟩) (run_mem m ρ)

end Cert.KernelIdeal.Run

end
-- ==== Proof.BlockReads.lean ====
/- Where an entry of a window's block sits in the window's array, per window of each of the three pallas_calls.
   A window cut along the rows has block index (t, 0) at grid point t, so entry (p, k) of its block is entry
   (rows·t + p, k) of the array; a window holding its whole array has block index (0, 0), so its block is the array. -/
import proofs.«137966_j70282844831970_2_alg».proof.Proof.Gen.KernelIdeal.Frame
import Idealize.ShloMosaic.Lib.ValueIdx
import Idealize.ShloMosaic.Lib.Pipeline.Value

set_option maxRecDepth 16384

noncomputable section

namespace Cert.EdgeNet.Blocks

open Idealize.ShloMosaic Idealize.ShloMosaic.ValueIdx Cert.KernelIdeal Cert.KernelIdeal.Gen

/-! ## Region 0 -/

/-- The printed index maps, decided over the grid. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt0 (t : Fin cfg0.N) : t.val < 25 := by have h := t.isLt; have e : cfg0.N = 25 := N_0; omega

theorem rd0_0 (G : S50000x128.Idx → Elt Ideal .bf16) (t : Fin cfg0.N) (p : Fin 2000) (k : Fin 128) (hr : 2000 * t.val + p.val < 50000) :
    ((cfg0.win 0).blk t).view.read (Elt Ideal) G (ix2 p k) = G (ix2 ⟨2000 * t.val + p.val, hr⟩ k) := by
  obtain ⟨e0a, e0b, e1a, e1b, e2a, e2b, e3a, e3b, e4a, e4b, e5a, e5b⟩ := idx0 t
  show G (((cfg0.win 0).blk t).view.emb (ix2 p k)) = _
  refine congrArg G (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega

theorem rd0_1 (G : S50000x128.Idx → Elt Ideal .bf16) (t : Fin cfg0.N) (p : Fin 2000) (k : Fin 128) (hr : 2000 * t.val + p.val < 50000) :
    ((cfg0.win 1).blk t).view.read (Elt Ideal) G (ix2 p k) = G (ix2 ⟨2000 * t.val + p.val, hr⟩ k) := by
  obtain ⟨e0a, e0b, e1a, e1b, e2a, e2b, e3a, e3b, e4a, e4b, e5a, e5b⟩ := idx0 t
  show G (((cfg0.win 1).blk t).view.emb (ix2 p k)) = _
  refine congrArg G (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * k.val = k.val; omega

theorem rd0_2 (G : S128x256.Idx → Elt Ideal .bf16) (t : Fin cfg0.N) (p : Fin 128) (k : Fin 256) :
    ((cfg0.win 2).blk t).view.read (Elt Ideal) G (ix2 p k) = G (ix2 p k) := by
  obtain ⟨e0a, e0b, e1a, e1b, e2a, e2b, e3a, e3b, e4a, e4b, e5a, e5b⟩ := idx0 t
  show G (((cfg0.win 2).blk t).view.emb (ix2 p k)) = _
  refine congrArg G (funext fun a => Fin.ext ?_)
  match a with
  | ⟨0, _⟩ => show win0_2.index t (0 : Fin 2) * 128 + 1 * p.val = p.val; omega
  | ⟨1, _⟩ => show win0_2.index t (1 : Fin 2) * 256 + 1 * k.val = k.val; omega

theorem rd0_3 (G : S128x256.Idx → Elt Ideal .bf16) (t : Fin cfg0.N) (p : Fin 128) (k : Fin 256) :
    ((cfg0.win 3).blk t).view.read (Elt Ideal) G (ix2 p k) = G (ix2 p k) := by
  obtain ⟨e0a, e0b, e1a, e1b, e2a, e2b, e3a, e3b, e4a, e4b, e5a, e5b⟩ := idx0 t
  show G (((cfg0.win 3).blk t).view.emb (ix2 p k)) = _
  refine congrArg G (funext fun a => Fin.ext ?_)
  match a with
  | ⟨0, _⟩ => show win0_3.index t (0 : Fin 2) * 128 + 1 * p.val = p.val; omega
  | ⟨1, _⟩ => show win0_3.index t (1 : Fin 2) * 256 + 1 * k.val = k.val; omega

theorem rd0_4 (G : S1x256.Idx → Elt Ideal .f32) (t : Fin cfg0.N) (p : Fin 1) (k : Fin 256) :
    ((cfg0.win 4).blk t).view.read (Elt Ideal) G (ix2 p k) = G (ix2 p k) := by
  obtain ⟨e0a, e0b, e1a, e1b, e2a, e2b, e3a, e3b, e4a, e4b, e5a, e5b⟩ := idx0 t
  show G (((cfg0.win 4).blk t).view.emb (ix2 p k)) = _
  refine congrArg G (funext fun a => Fin.ext ?_)
  match a with
  | ⟨0, _⟩ => show win0_4.index t (0 : Fin 2) * 1 + 1 * p.val = p.val; omega
  | ⟨1, _⟩ => show win0_4.index t (1 : Fin 2) * 256 + 1 * k.val = k.val; omega

theorem rd0_5 (G : S50000x256.Idx → Elt Ideal .f32) (t : Fin cfg0.N) (p : Fin 2000) (k : Fin 256) (hr : 2000 * t.val + p.val < 50000) :
    ((cfg0.win 5).blk t).view.read (Elt Ideal) G (ix2 p k) = G (ix2 ⟨2000 * t.val + p.val, hr⟩ k) := by
  obtain ⟨e0a, e0b, e1a, e1b, e2a, e2b, e3a, e3b, e4a, e4b, e5a, e5b⟩ := idx0 t
  show G (((cfg0.win 5).blk t).view.emb (ix2 p k)) = _
  refine congrArg G (funext fun a => Fin.ext ?_)
  match a with
  | ⟨0, _⟩ => show win0_5.index t (0 : Fin 2) * 2000 + 1 * p.val = 2000 * t.val + p.val; omega
  | ⟨1, _⟩ => show win0_5.index t (1 : Fin 2) * 256 + 1 * k.val = k.val; omega

/-! ## Region 1 -/

/-- The printed index maps, decided over the grid. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

theorem lt1 (t : Fin cfg1.N) : t.val < 25 := by have h := t.isLt; have e : cfg1.N = 25 := N_1; omega

theorem rd1_0 (G : S50000x256.Idx → Elt Ideal .bf16) (t : Fin cfg1.N) (p : Fin 2000) (k : Fin 256) (hr : 2000 * t.val + p.val < 50000) :
    ((cfg1.win 0).blk t).view.read (Elt Ideal) G (ix2 p k) = G (ix2 ⟨2000 * t.val + p.val, hr⟩ k) := by
  obtain ⟨e0a, e0b, e1a, e1b, e2a, e2b, e3a, e3b, e4a, e4b, e5a, e5b, e6a, e6b, e7a, e7b, e8a, e8b⟩ := idx1 t
  show G (((cfg1.win 0).blk t).view.emb (ix2 p k)) = _
  refine congrArg G (funext fun a => Fin.ext ?_)
  match a with
  | ⟨0, _⟩ => show win1_0.index t (0 : Fin 2) * 2000 + 1 * p.val = 2000 * t.val + p.val; omega
  | ⟨1, _⟩ => show win1_0.index t (1 : Fin 2) * 256 + 1 * k.val = k.val; omega

theorem rd1_1 (G : S50000x256.Idx → Elt Ideal .bf16) (t : Fin cfg1.N) (p : Fin 2000) (k : Fin 256) (hr : 2000 * t.val + p.val < 50000) :
    ((cfg1.win 1).blk t).view.read (Elt Ideal) G (ix2 p k) = G (ix2 ⟨2000 * t.val + p.val, hr⟩ k) := by
  obtain ⟨e0a, e0b, e1a, e1b, e2a, e2b, e3a, e3b, e4a, e4b, e5a, e5b, e6a, e6b, e7a, e7b, e8a, e8b⟩ := idx1 t
  show G (((cfg1.win 1).blk t).view.emb (ix2 p k)) = _
  refine congrArg G (funext fun a => Fin.ext ?_)
  match a with
  | ⟨0, _⟩ => show win1_1.index t (0 : Fin 2) * 2000 + 1 * p.val = 2000 * t.val + p.val; omega
  | ⟨1, _⟩ => show win1_1.index t (1 : Fin 2) * 256 + 1 * k.val = k.val; omega

theorem rd1_2 (G : S256x256.Idx → Elt Ideal .bf16) (t : Fin cfg1.N) (p : Fin 256) (k : Fin 256) :
    ((cfg1.win 2).blk t).view.read (Elt Ideal) G (ix2 p k) = G (ix2 p k) := by
  obtain ⟨e0a, e0b, e1a, e1b, e2a, e2b, e3a, e3b, e4a, e4b, e5a, e5b, e6a, e6b, e7a, e7b, e8a, e8b⟩ := idx1 t
  show G (((cfg1.win 2).blk t).view.emb (ix2 p k)) = _
  refine congrArg G (funext fun a => Fin.ext ?_)
  match a with
  | ⟨0, _⟩ => show win1_2.index t (0 : Fin 2) * 256 + 1 * p.val = p.val; omega
  | ⟨1, _⟩ => show win1_2.index t (1 : Fin 2) * 256 + 1 * k.val = k.val; omega

theorem rd1_3 (G : S256x256.Idx → Elt Ideal .bf16) (t : Fin cfg1.N) (p : Fin 256) (k : Fin 256) :
    ((cfg1.win 3).blk t).view.read (Elt Ideal) G (ix2 p k) = G (ix2 p k) := by
  obtain ⟨e0a, e0b, e1a, e1b, e2a, e2b, e3a, e3b, e4a, e4b, e5a, e5b, e6a, e6b, e7a, e7b, e8a, e8b⟩ := idx1 t
  show G (((cfg1.win 3).blk t).view.emb (ix2 p k)) = _
  refine congrArg G (funext fun a => Fin.ext ?_)
  match a with
  | ⟨0, _⟩ => show win1_3.index t (0 : Fin 2) * 256 + 1 * p.val = p.val; omega
  | ⟨1, _⟩ => show win1_3.index t (1 : Fin 2) * 256 + 1 * k.val = k.val; omega

theorem rd1_4 (G : S1x256.Idx → Elt Ideal .f32) (t : Fin cfg1.N) (p : Fin 1) (k : Fin 256) :
    ((cfg1.win 4).blk t).view.read (Elt Ideal) G (ix2 p k) = G (ix2 p k) := by
  obtain ⟨e0a, e0b, e1a, e1b, e2a, e2b, e3a, e3b, e4a, e4b, e5a, e5b, e6a, e6b, e7a, e7b, e8a, e8b⟩ := idx1 t
  show G (((cfg1.win 4).blk t).view.emb (ix2 p k)) = _
  refine congrArg G (funext fun a => Fin.ext ?_)
  match a with
  | ⟨0, _⟩ => show win1_4.index t (0 : Fin 2) * 1 + 1 * p.val = p.val; omega
  | ⟨1, _⟩ => show win1_4.index t (1 : Fin 2) * 256 + 1 * k.val = k.val; omega

theorem rd1_5 (G : S256x256.Idx → Elt Ideal .bf16) (t : Fin cfg1.N) (p : Fin 256) (k : Fin 256) :
    ((cfg1.win 5).blk t).view.read (Elt Ideal) G (ix2 p k) = G (ix2 p k) := by
  obtain ⟨e0a, e0b, e1a, e1b, e2a, e2b, e3a, e3b, e4a, e4b, e5a, e5b, e6a, e6b, e7a, e7b, e8a, e8b⟩ := idx1 t
  show G (((cfg1.win 5).blk t).view.emb (ix2 p k)) = _
  refine congrArg G (funext fun a => Fin.ext ?_)
  match a with
  | ⟨0, _⟩ => show win1_5.index t (0 : Fin 2) * 256 + 1 * p.val = p.val; omega
  | ⟨1, _⟩ => show win1_5.index t (1 : Fin 2) * 256 + 1 * k.val = k.val; omega

theorem rd1_6 (G : S256x256.Idx → Elt Ideal .bf16) (t : Fin cfg1.N) (p : Fin 256) (k : Fin 256) :
    ((cfg1.win 6).blk t).view.read (Elt Ideal) G (ix2 p k) = G (ix2 p k) := by
  obtain ⟨e0a, e0b, e1a, e1b, e2a, e2b, e3a, e3b, e4a, e4b, e5a, e5b, e6a, e6b, e7a, e7b, e8a, e8b⟩ := idx1 t
  show G (((cfg1.win 6).blk t).view.emb (ix2 p k)) = _
  refine congrArg G (funext fun a => Fin.ext ?_)
  match a with
  | ⟨0, _⟩ => show win1_6.index t (0 : Fin 2) * 256 + 1 * p.val = p.val; omega
  | ⟨1, _⟩ => show win1_6.index t (1 : Fin 2) * 256 + 1 * k.val = k.val; omega

theorem rd1_7 (G : S50000x256.Idx → Elt Ideal .bf16) (t : Fin cfg1.N) (p : Fin 2000) (k : Fin 256) (hr : 2000 * t.val + p.val < 50000) :
    ((cfg1.win 7).blk t).view.read (Elt Ideal) G (ix2 p k) = G (ix2 ⟨2000 * t.val + p.val, hr⟩ k) := by
  obtain ⟨e0a, e0b, e1a, e1b, e2a, e2b, e3a, e3b, e4a, e4b, e5a, e5b, e6a, e6b, e7a, e7b, e8a, e8b⟩ := idx1 t
  show G (((cfg1.win 7).blk t).view.emb (ix2 p k)) = _
  refine congrArg G (funext fun a => Fin.ext ?_)
  match a with
  | ⟨0, _⟩ => show win1_7.index t (0 : Fin 2) * 2000 + 1 * p.val = 2000 * t.val + p.val; omega
  | ⟨1, _⟩ => show win1_7.index t (1 : Fin 2) * 256 + 1 * k.val = k.val; omega

theorem rd1_8 (G : S50000x256.Idx → Elt Ideal .bf16) (t : Fin cfg1.N) (p : Fin 2000) (k : Fin 256) (hr : 2000 * t.val + p.val < 50000) :
    ((cfg1.win 8).blk t).view.read (Elt Ideal) G (ix2 p k) = G (ix2 ⟨2000 * t.val + p.val, hr⟩ k) := by
  obtain ⟨e0a, e0b, e1a, e1b, e2a, e2b, e3a, e3b, e4a, e4b, e5a, e5b, e6a, e6b, e7a, e7b, e8a, e8b⟩ := idx1 t
  show G (((cfg1.win 8).blk t).view.emb (ix2 p k)) = _
  refine congrArg G (funext fun a => Fin.ext ?_)
  match a with
  | ⟨0, _⟩ => show win1_8.index t (0 : Fin 2) * 2000 + 1 * p.val = 2000 * t.val + p.val; omega
  | ⟨1, _⟩ => show win1_8.index t (1 : Fin 2) * 256 + 1 * k.val = k.val; omega

/-! ## Region 2 -/

/-- The printed index maps, decided over the grid. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

theorem lt2 (t : Fin cfg2.N) : t.val < 100 := by have h := t.isLt; have e : cfg2.N = 100 := N_2; omega

theorem rd2_0 (G : S400000x256.Idx → Elt Ideal .bf16) (t : Fin cfg2.N) (p : Fin 4000) (k : Fin 256) (hr : 4000 * t.val + p.val < 400000) :
    ((cfg2.win 0).blk t).view.read (Elt Ideal) G (ix2 p k) = G (ix2 ⟨4000 * t.val + p.val, hr⟩ k) := by
  obtain ⟨e0a, e0b, e1a, e1b, e2a, e2b, e3a, e3b, e4a, e4b, e5a, e5b, e6a, e6b, e7a, e7b, e8a, e8b, e9a, e9b⟩ := idx2 t
  show G (((cfg2.win 0).blk t).view.emb (ix2 p k)) = _
  refine congrArg G (funext fun a => Fin.ext ?_)
  match a with
  | ⟨0, _⟩ => show win2_0.index t (0 : Fin 2) * 4000 + 1 * p.val = 4000 * t.val + p.val; omega
  | ⟨1, _⟩ => show win2_0.index t (1 : Fin 2) * 256 + 1 * k.val = k.val; omega

theorem rd2_1 (G : S400000x256.Idx → Elt Ideal .bf16) (t : Fin cfg2.N) (p : Fin 4000) (k : Fin 256) (hr : 4000 * t.val + p.val < 400000) :
    ((cfg2.win 1).blk t).view.read (Elt Ideal) G (ix2 p k) = G (ix2 ⟨4000 * t.val + p.val, hr⟩ k) := by
  obtain ⟨e0a, e0b, e1a, e1b, e2a, e2b, e3a, e3b, e4a, e4b, e5a, e5b, e6a, e6b, e7a, e7b, e8a, e8b, e9a, e9b⟩ := idx2 t
  show G (((cfg2.win 1).blk t).view.emb (ix2 p k)) = _
  refine congrArg G (funext fun a => Fin.ext ?_)
  match a with
  | ⟨0, _⟩ => show win2_1.index t (0 : Fin 2) * 4000 + 1 * p.val = 4000 * t.val + p.val; omega
  | ⟨1, _⟩ => show win2_1.index t (1 : Fin 2) * 256 + 1 * k.val = k.val; omega

theorem rd2_2 (G : S400000x64.Idx → Elt Ideal .f32) (t : Fin cfg2.N) (p : Fin 4000) (k : Fin 64) (hr : 4000 * t.val + p.val < 400000) :
    ((cfg2.win 2).blk t).view.read (Elt Ideal) G (ix2 p k) = G (ix2 ⟨4000 * t.val + p.val, hr⟩ k) := by
  obtain ⟨e0a, e0b, e1a, e1b, e2a, e2b, e3a, e3b, e4a, e4b, e5a, e5b, e6a, e6b, e7a, e7b, e8a, e8b, e9a, e9b⟩ := idx2 t
  show G (((cfg2.win 2).blk t).view.emb (ix2 p k)) = _
  refine congrArg G (funext fun a => Fin.ext ?_)
  match a with
  | ⟨0, _⟩ => show win2_2.index t (0 : Fin 2) * 4000 + 1 * p.val = 4000 * t.val + p.val; omega
  | ⟨1, _⟩ => show win2_2.index t (1 : Fin 2) * 64 + 1 * k.val = k.val; omega

theorem rd2_3 (G : S64x256.Idx → Elt Ideal .bf16) (t : Fin cfg2.N) (p : Fin 64) (k : Fin 256) :
    ((cfg2.win 3).blk t).view.read (Elt Ideal) G (ix2 p k) = G (ix2 p k) := by
  obtain ⟨e0a, e0b, e1a, e1b, e2a, e2b, e3a, e3b, e4a, e4b, e5a, e5b, e6a, e6b, e7a, e7b, e8a, e8b, e9a, e9b⟩ := idx2 t
  show G (((cfg2.win 3).blk t).view.emb (ix2 p k)) = _
  refine congrArg G (funext fun a => Fin.ext ?_)
  match a with
  | ⟨0, _⟩ => show win2_3.index t (0 : Fin 2) * 64 + 1 * p.val = p.val; omega
  | ⟨1, _⟩ => show win2_3.index t (1 : Fin 2) * 256 + 1 * k.val = k.val; omega

theorem rd2_4 (G : S1x256.Idx → Elt Ideal .f32) (t : Fin cfg2.N) (p : Fin 1) (k : Fin 256) :
    ((cfg2.win 4).blk t).view.read (Elt Ideal) G (ix2 p k) = G (ix2 p k) := by
  obtain ⟨e0a, e0b, e1a, e1b, e2a, e2b, e3a, e3b, e4a, e4b, e5a, e5b, e6a, e6b, e7a, e7b, e8a, e8b, e9a, e9b⟩ := idx2 t
  show G (((cfg2.win 4).blk t).view.emb (ix2 p k)) = _
  refine congrArg G (funext fun a => Fin.ext ?_)
  match a with
  | ⟨0, _⟩ => show win2_4.index t (0 : Fin 2) * 1 + 1 * p.val = p.val; omega
  | ⟨1, _⟩ => show win2_4.index t (1 : Fin 2) * 256 + 1 * k.val = k.val; omega

theorem rd2_5 (G : S256x128.Idx → Elt Ideal .bf16) (t : Fin cfg2.N) (p : Fin 256) (k : Fin 128) :
    ((cfg2.win 5).blk t).view.read (Elt Ideal) G (ix2 p k) = G (ix2 p k) := by
  obtain ⟨e0a, e0b, e1a, e1b, e2a, e2b, e3a, e3b, e4a, e4b, e5a, e5b, e6a, e6b, e7a, e7b, e8a, e8b, e9a, e9b⟩ := idx2 t
  show G (((cfg2.win 5).blk t).view.emb (ix2 p k)) = _
  refine congrArg G (funext fun a => Fin.ext ?_)
  match a with
  | ⟨0, _⟩ => show win2_5.index t (0 : Fin 2) * 256 + 1 * p.val = p.val; omega
  | ⟨1, _⟩ => show win2_5.index t (1 : Fin 2) * 128 + 1 * k.val = k.val; omega

theorem rd2_6 (G : S1x128.Idx → Elt Ideal .f32) (t : Fin cfg2.N) (p : Fin 1) (k : Fin 128) :
    ((cfg2.win 6).blk t).view.read (Elt Ideal) G (ix2 p k) = G (ix2 p k) := by
  obtain ⟨e0a, e0b, e1a, e1b, e2a, e2b, e3a, e3b, e4a, e4b, e5a, e5b, e6a, e6b, e7a, e7b, e8a, e8b, e9a, e9b⟩ := idx2 t
  show G (((cfg2.win 6).blk t).view.emb (ix2 p k)) = _
  refine congrArg G (funext fun a => Fin.ext ?_)
  match a with
  | ⟨0, _⟩ => show win2_6.index t (0 : Fin 2) * 1 + 1 * p.val = p.val; omega
  | ⟨1, _⟩ => show win2_6.index t (1 : Fin 2) * 128 + 1 * k.val = k.val; omega

theorem rd2_7 (G : S1x128.Idx → Elt Ideal .f32) (t : Fin cfg2.N) (p : Fin 1) (k : Fin 128) :
    ((cfg2.win 7).blk t).view.read (Elt Ideal) G (ix2 p k) = G (ix2 p k) := by
  obtain ⟨e0a, e0b, e1a, e1b, e2a, e2b, e3a, e3b, e4a, e4b, e5a, e5b, e6a, e6b, e7a, e7b, e8a, e8b, e9a, e9b⟩ := idx2 t
  show G (((cfg2.win 7).blk t).view.emb (ix2 p k)) = _
  refine congrArg G (funext fun a => Fin.ext ?_)
  match a with
  | ⟨0, _⟩ => show win2_7.index t (0 : Fin 2) * 1 + 1 * p.val = p.val; omega
  | ⟨1, _⟩ => show win2_7.index t (1 : Fin 2) * 128 + 1 * k.val = k.val; omega

theorem rd2_8 (G : S1x1.Idx → Elt Ideal .f32) (t : Fin cfg2.N) (p : Fin 1) (k : Fin 1) :
    ((cfg2.win 8).blk t).view.read (Elt Ideal) G (ix2 p k) = G (ix2 p k) := by
  obtain ⟨e0a, e0b, e1a, e1b, e2a, e2b, e3a, e3b, e4a, e4b, e5a, e5b, e6a, e6b, e7a, e7b, e8a, e8b, e9a, e9b⟩ := idx2 t
  show G (((cfg2.win 8).blk t).view.emb (ix2 p k)) = _
  refine congrArg G (funext fun a => Fin.ext ?_)
  match a with
  | ⟨0, _⟩ => show win2_8.index t (0 : Fin 2) * 1 + 1 * p.val = p.val; omega
  | ⟨1, _⟩ => show win2_8.index t (1 : Fin 2) * 1 + 1 * k.val = k.val; omega

theorem rd2_9 (G : S400000x1.Idx → Elt Ideal .f32) (t : Fin cfg2.N) (p : Fin 4000) (k : Fin 1) (hr : 4000 * t.val + p.val < 400000) :
    ((cfg2.win 9).blk t).view.read (Elt Ideal) G (ix2 p k) = G (ix2 ⟨4000 * t.val + p.val, hr⟩ k) := by
  obtain ⟨e0a, e0b, e1a, e1b, e2a, e2b, e3a, e3b, e4a, e4b, e5a, e5b, e6a, e6b, e7a, e7b, e8a, e8b, e9a, e9b⟩ := idx2 t
  show G (((cfg2.win 9).blk t).view.emb (ix2 p k)) = _
  refine congrArg G (funext fun a => Fin.ext ?_)
  match a with
  | ⟨0, _⟩ => show win2_9.index t (0 : Fin 2) * 4000 + 1 * p.val = 4000 * t.val + p.val; omega
  | ⟨1, _⟩ => show win2_9.index t (1 : Fin 2) * 1 + 1 * k.val = k.val; omega

end Cert.EdgeNet.Blocks

end
-- ==== Proof.Spec.lean ====
/-
  The mathematics both programs compute, entry by entry, on the extended reals.

  A graph layer's output feature is the neighbours' mean against one weight column plus the node's own features
  against another, plus a bias (`sage`).  The edge head takes, for one edge, the two end nodes' embeddings and the
  edge's features laid side by side as 576 numbers, multiplies by a 576 x 256 matrix, adds a bias, rectifies, applies
  a 256 x 128 layer with bias and rectifier, and a last 128 -> 1 layer (`headCat`).  Because a finite sum over 576
  positions is the sum over its first 256, its next 256 and its last 64 (`sum_576`: addition of extended reals is
  commutative and associative, nothing more is used, so no finiteness is needed), the first layer is the sum of three
  partial products, the first two of which depend on one end node each and can be formed once per node
  (`headSplit`, `head_eq`).
-/
import Idealize.ShloMosaic.PureOps.Ideal.Laws
import Idealize.ShloMosaic.Lib.ValueIdx

noncomputable section

namespace Cert.EdgeNet

open Idealize.ShloMosaic

/-- The f32 zero word read as an extended real; both programs carry this same word, so it is never evaluated. -/
abbrev zw : EReal := Ideal.ofBits .f32 0x00000000#32

/-- The rectifier as both programs spell it: the maximum with the zero word. -/
def relu (x : EReal) : EReal := max x zw

/-- One output feature of a graph layer at one node: `Σ_k mean(k)·wn(k) + Σ_k own(k)·ws(k) + b`. -/
def sage {K : Nat} (mn x wn ws : Fin K → EReal) (b : EReal) : EReal :=
  (∑ k : Fin K, mn k * wn k + ∑ k : Fin K, x k * ws k) + b

/-- The second and third layers of the edge head applied to the first layer's pre-activations `z`. -/
def headTail (z : Fin 256 → EReal) (W2 : Fin 256 → Fin 128 → EReal) (b2 : Fin 128 → EReal) (w3 : Fin 128 → EReal)
    (b3 : EReal) : EReal :=
  (∑ j : Fin 128, relu ((∑ k : Fin 256, relu (z k) * W2 k j) + b2 j) * w3 j) + b3

/-- The edge head on the 576 numbers laid side by side. -/
def headCat (X : Fin 576 → EReal) (W1 : Fin 576 → Fin 256 → EReal) (b1 : Fin 256 → EReal)
    (W2 : Fin 256 → Fin 128 → EReal) (b2 : Fin 128 → EReal) (w3 : Fin 128 → EReal) (b3 : EReal) : EReal :=
  headTail (fun k => (∑ q : Fin 576, X q * W1 q k) + b1 k) W2 b2 w3 b3

/-- The edge head from the two per-node partial products `P`, `D` and the edge's own 64 features. -/
def headSplit (P D : Fin 256 → EReal) (ef : Fin 64 → EReal) (We : Fin 64 → Fin 256 → EReal) (b1 : Fin 256 → EReal)
    (W2 : Fin 256 → Fin 128 → EReal) (b2 : Fin 128 → EReal) (w3 : Fin 128 → EReal) (b3 : EReal) : EReal :=
  headTail (fun k => ((P k + D k) + ∑ i : Fin 64, ef i * We i k) + b1 k) W2 b2 w3 b3

/-- A sum over 576 positions is the sum over the first 256, the next 256 and the last 64. -/
theorem sum_576 (f : Fin 576 → EReal) :
    ∑ q : Fin 576, f q
      = (∑ q : Fin 256, f ⟨q.val, by omega⟩ + ∑ q : Fin 256, f ⟨256 + q.val, by omega⟩)
        + ∑ q : Fin 64, f ⟨512 + q.val, by omega⟩ := by
  have h1 : ∑ q : Fin (512 + 64), f q
      = ∑ q : Fin 512, f (Fin.castAdd 64 q) + ∑ q : Fin 64, f (Fin.natAdd 512 q) := @Fin.sum_univ_add _ _ 512 64 f
  have h2 : ∑ q : Fin (256 + 256), f (Fin.castAdd 64 q)
      = ∑ q : Fin 256, f (Fin.castAdd 64 (Fin.castAdd 256 q)) + ∑ q : Fin 256, f (Fin.castAdd 64 (Fin.natAdd 256 q)) :=
    @Fin.sum_univ_add _ _ 256 256 fun q : Fin (256 + 256) => f (Fin.castAdd 64 q)
  exact h1.trans (congrArg (· + _) h2)

/-- The two arrangements of the edge head agree when the 576 numbers are the source node's 256, the destination
    node's 256 and the edge's 64, and `P`, `D` are the nodes' partial products against the first and second 256
    rows of the weight matrix. -/
theorem head_eq (X : Fin 576 → EReal) (W1 : Fin 576 → Fin 256 → EReal) (b1 : Fin 256 → EReal)
    (W2 : Fin 256 → Fin 128 → EReal) (b2 : Fin 128 → EReal) (w3 : Fin 128 → EReal) (b3 : EReal)
    (P D : Fin 256 → EReal) (ef : Fin 64 → EReal) (We : Fin 64 → Fin 256 → EReal)
    (hP : ∀ k, P k = ∑ q : Fin 256, X ⟨q.val, by omega⟩ * W1 ⟨q.val, by omega⟩ k)
    (hD : ∀ k, D k = ∑ q : Fin 256, X ⟨256 + q.val, by omega⟩ * W1 ⟨256 + q.val, by omega⟩ k)
    (hE : ∀ k, (∑ i : Fin 64, ef i * We i k) = ∑ q : Fin 64, X ⟨512 + q.val, by omega⟩ * W1 ⟨512 + q.val, by omega⟩ k) :
    headSplit P D ef We b1 W2 b2 w3 b3 = headCat X W1 b1 W2 b2 w3 b3 := by
  unfold headSplit headCat
  refine congrArg (fun z => headTail z W2 b2 w3 b3) (funext fun k => ?_)
  rw [sum_576 fun q => X q * W1 q k, hP k, hD k, hE k]

end Cert.EdgeNet

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«137966_j70282844831970_2_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibRowSumBroadcast.lean ====
/-
  A row sum kept along a unit axis and broadcast back, read at an index given by coordinates, over the extended reals.

  For a matrix `src` of shape `[a, b]`, the sum along each row taken into the zero accumulator (the f32 word `0x00000000`, with the
  accumulator's side condition stated as the equation `0x00000000 = 0x00000000` it is printed with):
    • `rowSum`: at row `r` it is `Σ_{k < b} src (r, k)`;
    • `colBroadcast`: kept as the column `[a, 1]` (a sum with `keepdims`) and broadcast to `[a, n]`, at `(p, q)` it is the sum along row `p`;
    • `rowBroadcast`: kept as the row `[1, a]` and broadcast to `[n, a]`, at `(p, q)` it is the sum along row `q`.
  Stated with the side conditions as hypotheses of exactly these types, the three rewrite a printed body directly.
  Needs `LibColumn.lean` and `LibRowReduce.lean` (with its `LibRowColumn.lean`) beside it.
-/
import proofs.«137966_j70282844831970_2_alg».proof.Proof.LibColumn
import proofs.«137966_j70282844831970_2_alg».proof.Proof.LibRowReduce
import Idealize.ShloMosaic.Lib.ValueLayout

noncomputable section

open scoped BigOperators

namespace Idealize.ShloMosaic.RowSumBroadcast

open Idealize.ShloMosaic Idealize.ShloMosaic.ValueIdx

/-- The sum along row `r` of a matrix, as a reduction into the zero accumulator computes it. -/
theorem rowSum {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  RowReduce.multiReduction_add_cols src _ h hφ hacc r

/-- A row sum kept as a column and broadcast along the other axis reads, at `(p, q)`, the sum along row `p`. -/
theorem colBroadcast {a b n : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, n]⟩) (p : Fin a) (q : Fin n) :
    broadcastTo ⟨2, ![a, n]⟩ (shapeCast ⟨2, ![a, 1]⟩ (multiReduction .add [1] ⟨1, ![a]⟩ src 0x00000000#32 h hφ hacc) hc) hb (ix2 p q)
      = ∑ k : Fin b, src (ix2 p k) := by
  rw [Column.broadcastTo_a1_ab_apply, Column.shapeCast_a_a1_apply, rowSum]

/-- A row sum kept as a row and broadcast along the other axis reads, at `(p, q)`, the sum along row `q`. -/
theorem rowBroadcast {a b n : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32)
    (hc : (⟨1, ![a]⟩ : Shape).ShapeCasts ⟨2, ![1, a]⟩) (hb : (⟨2, ![1, a]⟩ : Shape).Broadcasts ⟨2, ![n, a]⟩) (p : Fin n) (q : Fin a) :
    broadcastTo ⟨2, ![n, a]⟩ (shapeCast ⟨2, ![1, a]⟩ (multiReduction .add [1] ⟨1, ![a]⟩ src 0x00000000#32 h hφ hacc) hc) hb (ix2 p q)
      = ∑ k : Fin b, src (ix2 q k) := by
  rw [broadcastTo_1b_ab_apply, shapeCast_a_1a_apply, rowSum]

end Idealize.ShloMosaic.RowSumBroadcast

end
-- ==== Proof.Bodies.lean ====
/-
  What each of the three kernel bodies leaves in its output block, entry by entry, on the extended reals.

  A body loads whole blocks, computes and stores one whole block.  At the ideal reading a change of float format is the
  identity, a matrix unit's product into a zero accumulator is the finite sum over the contracted coordinate, a
  one-row array broadcast down the rows reads its single row, and a reduction along the rows into the zero
  accumulator is the row's finite sum.  So:
  * the first body's entry (p, j) is the rectified graph-layer feature `relu (sage …)` of row p of its two row blocks;
  * the second body's entry (p, q) is row p's (unrectified) layer output against column q of a 256 x 256 matrix — the
    two outputs differ only in that matrix;
  * the third body's entry (p, 0) is the edge head `headSplit` of row p of its three row blocks.
  Each reads row p of the row blocks only.
-/
import proofs.«137966_j70282844831970_2_alg».proof.Proof.Gen.KernelIdeal.Frame
import proofs.«137966_j70282844831970_2_alg».proof.Proof.Spec
import proofs.«137966_j70282844831970_2_alg».proof.Proof.LibPlainDot
import proofs.«137966_j70282844831970_2_alg».proof.Proof.LibColumn
import proofs.«137966_j70282844831970_2_alg».proof.Proof.LibRowSumBroadcast
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.EdgeNet.Body

open Idealize.ShloMosaic Idealize.ShloMosaic.ValueIdx Cert.KernelIdeal Cert.KernelIdeal.Gen Cert.EdgeNet

theorem hz : (![0, 0] : Fin 2 → Nat) = fun _ => 0 := funext fun a => by fin_cases a <;> rfl

/-! ## The matrix products of the three bodies, read at an entry -/

theorem mm_128_256 (l : FVec Ideal S2000x128 .bf16) (r : FVec Ideal S128x256 .bf16) (p : Fin 2000) (j : Fin 256) :
    matmul dot_S2000x128_S128x256_S2000x256_1_0_0_1_n_n none l r (constant S2000x256 .f32 0x00000000#32) (ix2 p j)
      = ∑ k : Fin 128, l (ix2 p k) * r (ix2 k j) :=
  PlainDot.matmul_apply_ix2 none l r p j

theorem mm_256_256 (l : FVec Ideal S2000x256 .bf16) (r : FVec Ideal S256x256 .bf16) (p : Fin 2000) (j : Fin 256) :
    matmul dot_S2000x256_S256x256_S2000x256_1_0_0_1_n_n none l r (constant S2000x256 .f32 0x00000000#32) (ix2 p j)
      = ∑ k : Fin 256, l (ix2 p k) * r (ix2 k j) :=
  PlainDot.matmul_apply_ix2 none l r p j

theorem mm_64_256 (l : FVec Ideal S4000x64 .bf16) (r : FVec Ideal S64x256 .bf16) (p : Fin 4000) (j : Fin 256) :
    matmul dot_S4000x64_S64x256_S4000x256_1_0_0_1_n_n none l r (constant S4000x256 .f32 0x00000000#32) (ix2 p j)
      = ∑ k : Fin 64, l (ix2 p k) * r (ix2 k j) :=
  PlainDot.matmul_apply_ix2 none l r p j

theorem mm_256_128 (l : FVec Ideal S4000x256 .bf16) (r : FVec Ideal S256x128 .bf16) (p : Fin 4000) (j : Fin 128) :
    matmul dot_S4000x256_S256x128_S4000x128_1_0_0_1_n_n none l r (constant S4000x128 .f32 0x00000000#32) (ix2 p j)
      = ∑ k : Fin 256, l (ix2 p k) * r (ix2 k j) :=
  PlainDot.matmul_apply_ix2 none l r p j

/-! ## The first body: one graph layer with the rectifier -/

theorem pay0_apply (v0 v5 : Vec Ideal S2000x128 .bf16) (v2 v7 : Vec Ideal S128x256 .bf16) (v11 : Vec Ideal S1x256 .f32)
    (p : Fin 2000) (j : Fin 256) :
    k0_pay1 (F := Ideal) v0 v2 v5 v7 v11 (ix2 p j)
      = relu (sage (fun k : Fin 128 => v0 (ix2 p k)) (fun k => v5 (ix2 p k)) (fun k => v2 (ix2 k j))
          (fun k => v7 (ix2 k j)) (v11 (ix2 (0 : Fin 1) j))) := by
  unfold k0_pay1
  simp only [shapeCast_self]
  have e1 := mm_128_256 v0 v2 p j
  have e2 := mm_128_256 v5 v7 p j
  have e3 : broadcastTo S2000x256 v11 broadcasts_S1x256_S2000x256 (ix2 p j) = v11 (ix2 (0 : Fin 1) j) :=
    broadcastTo_1b_ab_apply v11 _ p j
  show max ((_ + _) + _) zw = _
  rw [e1, e2, e3]
  rfl

theorem out0_apply (x0 x1 : Vec Ideal S2000x128 .bf16) (x2 x3 : Vec Ideal S128x256 .bf16) (x4 : Vec Ideal S1x256 .f32)
    (p : Fin 2000) (j : Fin 256) :
    out0_5 (F := Ideal) x0 x1 x2 x3 x4 (ix2 p j)
      = relu (sage (fun k : Fin 128 => x0 (ix2 p k)) (fun k => x1 (ix2 p k)) (fun k => x2 (ix2 k j))
          (fun k => x3 (ix2 k j)) (x4 (ix2 (0 : Fin 1) j))) := by
  unfold out0_5
  rw [View.canon_unit_zero hz]
  simp only [View.ld_unit_zero (S := S2000x128) hz, View.ld_unit_zero (S := S128x256) hz, View.ld_unit_zero (S := S1x256) hz]
  exact pay0_apply x0 x1 x2 x3 x4 p j

/-! ## The second body: the second graph layer, then its rows against a 256 x 256 matrix -/

theorem pay1_apply (v0 v5 : Vec Ideal S2000x256 .bf16) (v2 v7 : Vec Ideal S256x256 .bf16) (v11 : Vec Ideal S1x256 .f32)
    (p : Fin 2000) (j : Fin 256) :
    k1_pay1 (F := Ideal) v0 v2 v5 v7 v11 (ix2 p j)
      = sage (fun k : Fin 256 => v0 (ix2 p k)) (fun k => v5 (ix2 p k)) (fun k => v2 (ix2 k j))
          (fun k => v7 (ix2 k j)) (v11 (ix2 (0 : Fin 1) j)) := by
  unfold k1_pay1
  simp only [shapeCast_self]
  have e1 := mm_256_256 v0 v2 p j
  have e2 := mm_256_256 v5 v7 p j
  have e3 : broadcastTo S2000x256 v11 broadcasts_S1x256_S2000x256 (ix2 p j) = v11 (ix2 (0 : Fin 1) j) :=
    broadcastTo_1b_ab_apply v11 _ p j
  show ((_ : EReal) + (_ : EReal)) + (_ : EReal) = _
  rw [e1, e2, e3]
  rfl

/-- The node-side partial product: row p's layer output against column q of `w`. -/
def proj (x0 x1 : Vec Ideal S2000x256 .bf16) (x2 x3 : Vec Ideal S256x256 .bf16) (x4 : Vec Ideal S1x256 .f32)
    (w : Vec Ideal S256x256 .bf16) (p : Fin 2000) (q : Fin 256) : EReal :=
  ∑ k : Fin 256, sage (fun i : Fin 256 => x0 (ix2 p i)) (fun i => x1 (ix2 p i)) (fun i => x2 (ix2 i k))
      (fun i => x3 (ix2 i k)) (x4 (ix2 (0 : Fin 1) k)) * w (ix2 k q)

theorem pay2_apply (v0 v5 : Vec Ideal S2000x256 .bf16) (v2 v7 : Vec Ideal S256x256 .bf16) (v11 : Vec Ideal S1x256 .f32)
    (v16 : Vec Ideal S256x256 .bf16) (p : Fin 2000) (q : Fin 256) :
    k1_pay2 (F := Ideal) v0 v2 v5 v7 v11 v16 (ix2 p q) = proj v0 v5 v2 v7 v11 v16 p q := by
  unfold k1_pay2
  simp only [shapeCast_self]
  refine (mm_256_256 (k1_pay1 (F := Ideal) v0 v2 v5 v7 v11) v16 p q).trans ?_
  exact Finset.sum_congr rfl fun k _ => congrArg (· * v16 (ix2 k q)) (pay1_apply v0 v5 v2 v7 v11 p k)

theorem pay3_apply (v0 v5 : Vec Ideal S2000x256 .bf16) (v2 v7 : Vec Ideal S256x256 .bf16) (v11 : Vec Ideal S1x256 .f32)
    (v19 : Vec Ideal S256x256 .bf16) (p : Fin 2000) (q : Fin 256) :
    k1_pay3 (F := Ideal) v0 v2 v5 v7 v11 v19 (ix2 p q) = proj v0 v5 v2 v7 v11 v19 p q := by
  unfold k1_pay3
  simp only [shapeCast_self]
  refine (mm_256_256 (k1_pay1 (F := Ideal) v0 v2 v5 v7 v11) v19 p q).trans ?_
  exact Finset.sum_congr rfl fun k _ => congrArg (· * v19 (ix2 k q)) (pay1_apply v0 v5 v2 v7 v11 p k)

theorem out1_7_apply (x0 x1 : Vec Ideal S2000x256 .bf16) (x2 x3 : Vec Ideal S256x256 .bf16) (x4 : Vec Ideal S1x256 .f32)
    (x5 x6 : Vec Ideal S256x256 .bf16) (p : Fin 2000) (q : Fin 256) :
    out1_7 (F := Ideal) x0 x1 x2 x3 x4 x5 x6 (ix2 p q) = proj x0 x1 x2 x3 x4 x5 p q := by
  unfold out1_7
  rw [View.canon_unit_zero hz]
  simp only [View.ld_unit_zero (S := S2000x256) hz, View.ld_unit_zero (S := S256x256) hz, View.ld_unit_zero (S := S1x256) hz]
  exact pay2_apply x0 x1 x2 x3 x4 x5 p q

theorem out1_8_apply (x0 x1 : Vec Ideal S2000x256 .bf16) (x2 x3 : Vec Ideal S256x256 .bf16) (x4 : Vec Ideal S1x256 .f32)
    (x5 x6 : Vec Ideal S256x256 .bf16) (p : Fin 2000) (q : Fin 256) :
    out1_8 (F := Ideal) x0 x1 x2 x3 x4 x5 x6 (ix2 p q) = proj x0 x1 x2 x3 x4 x6 p q := by
  unfold out1_8
  rw [View.canon_unit_zero hz]
  simp only [View.ld_unit_zero (S := S2000x256) hz, View.ld_unit_zero (S := S256x256) hz, View.ld_unit_zero (S := S1x256) hz]
  exact pay3_apply x0 x1 x2 x3 x4 x6 p q

end Cert.EdgeNet.Body

end
-- ==== Proof.BodyEdge.lean ====
/-
  The third kernel body (the edge head), entry by entry.

  For one block of 4000 edges the body adds the two gathered per-node partial products, adds the edges' own 64
  features against a 64 x 256 matrix and a bias row, rectifies; applies a 256 x 128 layer with bias and rectifier; and
  replaces the last 128 -> 1 product by an entrywise product with a one-row weight array summed along each row, plus a
  1 x 1 bias.  Entry (p, 0) of the stored block is `headSplit` of row p of the three row blocks.
-/
import proofs.«137966_j70282844831970_2_alg».proof.Proof.Bodies

set_option maxRecDepth 16384

noncomputable section

namespace Cert.EdgeNet.Body

open Idealize.ShloMosaic Idealize.ShloMosaic.ValueIdx Cert.KernelIdeal Cert.KernelIdeal.Gen Cert.EdgeNet

/-- The first layer before the rectifier, as the body spells it. -/
def z1 (v0 : FVec Ideal S4000x64 .f32) (v2 v5 : FVec Ideal S4000x256 .bf16) (v9 : FVec Ideal S64x256 .bf16)
    (v13 : FVec Ideal S1x256 .f32) : FVec Ideal S4000x256 .f32 :=
  addf (addf (addf (extf .f32 v2 bitsLt_bf16_f32) (extf .f32 v5 bitsLt_bf16_f32))
      (matmul dot_S4000x64_S64x256_S4000x256_1_0_0_1_n_n none (truncf .bf16 v0 bitsLt_bf16_f32) v9
        (constant S4000x256 .f32 0x00000000#32)))
    (broadcastTo S4000x256 v13 broadcasts_S1x256_S4000x256)

theorem z1_apply (v0 : FVec Ideal S4000x64 .f32) (v2 v5 : FVec Ideal S4000x256 .bf16) (v9 : FVec Ideal S64x256 .bf16)
    (v13 : FVec Ideal S1x256 .f32) (p : Fin 4000) (k : Fin 256) :
    z1 v0 v2 v5 v9 v13 (ix2 p k)
      = ((v2 (ix2 p k) + v5 (ix2 p k)) + ∑ i : Fin 64, v0 (ix2 p i) * v9 (ix2 i k)) + v13 (ix2 (0 : Fin 1) k) := by
  unfold z1
  have e1 := mm_64_256 (truncf .bf16 v0 bitsLt_bf16_f32) v9 p k
  have e2 : broadcastTo S4000x256 v13 broadcasts_S1x256_S4000x256 (ix2 p k) = v13 (ix2 (0 : Fin 1) k) :=
    broadcastTo_1b_ab_apply v13 _ p k
  show (((_ : EReal) + (_ : EReal)) + (_ : EReal)) + (_ : EReal) = _
  rw [e1, e2]
  rfl

/-- The second layer after its rectifier, as the body spells it. -/
def h2 (v0 : FVec Ideal S4000x64 .f32) (v2 v5 : FVec Ideal S4000x256 .bf16) (v9 : FVec Ideal S64x256 .bf16)
    (v13 : FVec Ideal S1x256 .f32) (v20 : FVec Ideal S256x128 .bf16) (v23 : FVec Ideal S1x128 .f32) : FVec Ideal S4000x128 .f32 :=
  maximumf (addf (matmul dot_S4000x256_S256x128_S4000x128_1_0_0_1_n_n none
        (truncf .bf16 (maximumf (z1 v0 v2 v5 v9 v13) (broadcast S4000x256 (Scalar.ofBits .f32 0x00000000#32))) bitsLt_bf16_f32)
        v20 (constant S4000x128 .f32 0x00000000#32))
      (broadcastTo S4000x128 v23 broadcasts_S1x128_S4000x128))
    (broadcast S4000x128 (Scalar.ofBits .f32 0x00000000#32))

theorem h2_apply (v0 : FVec Ideal S4000x64 .f32) (v2 v5 : FVec Ideal S4000x256 .bf16) (v9 : FVec Ideal S64x256 .bf16)
    (v13 : FVec Ideal S1x256 .f32) (v20 : FVec Ideal S256x128 .bf16) (v23 : FVec Ideal S1x128 .f32) (p : Fin 4000) (j : Fin 128) :
    h2 v0 v2 v5 v9 v13 v20 v23 (ix2 p j)
      = relu ((∑ k : Fin 256, relu (z1 v0 v2 v5 v9 v13 (ix2 p k)) * v20 (ix2 k j)) + v23 (ix2 (0 : Fin 1) j)) := by
  unfold h2
  have e1 := mm_256_128
    (truncf .bf16 (maximumf (z1 v0 v2 v5 v9 v13) (broadcast S4000x256 (Scalar.ofBits .f32 0x00000000#32))) bitsLt_bf16_f32) v20 p j
  have e2 : broadcastTo S4000x128 v23 broadcasts_S1x128_S4000x128 (ix2 p j) = v23 (ix2 (0 : Fin 1) j) :=
    broadcastTo_1b_ab_apply v23 _ p j
  show max ((_ : EReal) + (_ : EReal)) zw = _
  rw [e1, e2]
  rfl

/-- The body's stored value is these pieces put together (its casts of a block to its own shape are the identity). -/
theorem pay_edge_eq (v0 : FVec Ideal S4000x64 .f32) (v2 v5 : FVec Ideal S4000x256 .bf16) (v9 : FVec Ideal S64x256 .bf16)
    (v13 : FVec Ideal S1x256 .f32) (v20 : FVec Ideal S256x128 .bf16) (v23 v29 : FVec Ideal S1x128 .f32) (v35 : FVec Ideal S1x1 .f32) :
    k2_pay1 (F := Ideal) (k2_pay2 v0 v2 v5 v9 v13 v20 v23 v29) v35
      = addf (shapeCast S4000x1
            (multiReduction .add [1] S4000 (mulf (h2 v0 v2 v5 v9 v13 v20 v23) (broadcastTo S4000x128 v29 broadcasts_S1x128_S4000x128))
              0x00000000#32 reduces_S4000x128_S4000 (.inl rfl) rfl) shapeCasts_S4000_S4000x1)
          (broadcastTo S4000x1 v35 broadcasts_S1x1_S4000x1) := by
  unfold k2_pay1 k2_pay2 h2 z1
  simp only [shapeCast_self]

theorem pay_edge_apply (v0 : FVec Ideal S4000x64 .f32) (v2 v5 : FVec Ideal S4000x256 .bf16) (v9 : FVec Ideal S64x256 .bf16)
    (v13 : FVec Ideal S1x256 .f32) (v20 : FVec Ideal S256x128 .bf16) (v23 v29 : FVec Ideal S1x128 .f32) (v35 : FVec Ideal S1x1 .f32)
    (p : Fin 4000) :
    k2_pay1 (F := Ideal) (k2_pay2 v0 v2 v5 v9 v13 v20 v23 v29) v35 (ix2 p (0 : Fin 1))
      = headSplit (fun k : Fin 256 => v2 (ix2 p k)) (fun k => v5 (ix2 p k)) (fun i : Fin 64 => v0 (ix2 p i))
          (fun i k => v9 (ix2 i k)) (fun k => v13 (ix2 (0 : Fin 1) k)) (fun k j => v20 (ix2 k j))
          (fun j : Fin 128 => v23 (ix2 (0 : Fin 1) j)) (fun j => v29 (ix2 (0 : Fin 1) j)) (v35 (ix2 (0 : Fin 1) (0 : Fin 1))) := by
  rw [pay_edge_eq, addf_apply, Column.shapeCast_a_a1_apply, RowSumBroadcast.rowSum, broadcastTo_1b_ab_apply]
  unfold headSplit headTail
  refine congrArg (· + v35 (ix2 (0 : Fin 1) (0 : Fin 1))) (Finset.sum_congr rfl fun j _ => ?_)
  show h2 v0 v2 v5 v9 v13 v20 v23 (ix2 p j) * broadcastTo S4000x128 v29 broadcasts_S1x128_S4000x128 (ix2 p j) = _
  rw [h2_apply, broadcastTo_1b_ab_apply]
  refine congrArg (fun s => relu (s + v23 (ix2 (0 : Fin 1) j)) * v29 (ix2 (0 : Fin 1) j)) (Finset.sum_congr rfl fun k _ => ?_)
  rw [z1_apply]

theorem out2_apply (x0 x1 : FVec Ideal S4000x256 .bf16) (x2 : FVec Ideal S4000x64 .f32) (x3 : FVec Ideal S64x256 .bf16)
    (x4 : FVec Ideal S1x256 .f32) (x5 : FVec Ideal S256x128 .bf16) (x6 x7 : FVec Ideal S1x128 .f32) (x8 : FVec Ideal S1x1 .f32)
    (p : Fin 4000) :
    out2_9 (F := Ideal) x0 x1 x2 x3 x4 x5 x6 x7 x8 (ix2 p (0 : Fin 1))
      = headSplit (fun k : Fin 256 => x0 (ix2 p k)) (fun k => x1 (ix2 p k)) (fun i : Fin 64 => x2 (ix2 p i))
          (fun i k => x3 (ix2 i k)) (fun k => x4 (ix2 (0 : Fin 1) k)) (fun k j => x5 (ix2 k j))
          (fun j : Fin 128 => x6 (ix2 (0 : Fin 1) j)) (fun j => x7 (ix2 (0 : Fin 1) j)) (x8 (ix2 (0 : Fin 1) (0 : Fin 1))) := by
  unfold out2_9
  rw [View.canon_unit_zero hz]
  simp only [View.ld_unit_zero (S := S4000x256) hz, View.ld_unit_zero (S := S4000x64) hz, View.ld_unit_zero (S := S64x256) hz,
    View.ld_unit_zero (S := S1x256) hz, View.ld_unit_zero (S := S256x128) hz, View.ld_unit_zero (S := S1x128) hz,
    View.ld_unit_zero (S := S1x1) hz]
  exact pay_edge_apply x2 x0 x1 x3 x4 x5 x6 x7 x8 p

end Cert.EdgeNet.Body

end
-- ==== Proof.Finals.lean ====
/-
  Each pallas_call's output arrays after its region, as whole-array functions of the arrays the region finds.

  Every window is either cut along the rows (block t holds rows rows·t … rows·t + rows − 1, all columns) or holds its
  whole array at every point.  Entry (p, j) of the block a body stores at point t depends on row p of the row blocks
  only, that is on row rows·t + p of the arrays; so the block written back at point t is block t of ONE function of
  the arrays (`layer1`, `projArr`, `headArr`), the blocks of the points cover the output array (row r lies in the
  block of point r / rows), and the array ends holding that function.  All of it holds for any contents `V` the
  region is entered with.
-/
import proofs.«137966_j70282844831970_2_alg».proof.Proof.BlockReads
import proofs.«137966_j70282844831970_2_alg».proof.Proof.Bodies
import proofs.«137966_j70282844831970_2_alg».proof.Proof.BodyEdge

set_option maxRecDepth 16384

noncomputable section

namespace Cert.EdgeNet.Finals

open Idealize.ShloMosaic Idealize.ShloMosaic.TcCoe Idealize.SL.Sem Idealize.ShloMosaic.ValueIdx
open Cert.KernelIdeal Cert.KernelIdeal.Gen Cert.EdgeNet Cert.EdgeNet.Blocks Cert.EdgeNet.Body

variable (V : (c : Dev nD) → (b : Ref sig .tc) → Buf (Elt Ideal) ((c : Thread nD τ).loc b))

/-! ## The three whole-array functions -/

/-- The first graph layer with its rectifier: entry (r, j) from row r of the two node arrays. -/
def layer1 (A0 A1 : S50000x128.Idx → Elt Ideal .bf16) (A2 A3 : S128x256.Idx → Elt Ideal .bf16)
    (A4 : S1x256.Idx → Elt Ideal .f32) : S50000x256.Idx → Elt Ideal .f32 := fun i =>
  relu (sage (fun k : Fin 128 => A0 (ix2 ⟨(i 0).val, idx2_lt0 i⟩ k)) (fun k => A1 (ix2 ⟨(i 0).val, idx2_lt0 i⟩ k))
    (fun k => A2 (ix2 k ⟨(i 1).val, idx2_lt1 i⟩)) (fun k => A3 (ix2 k ⟨(i 1).val, idx2_lt1 i⟩))
    (A4 (ix2 (0 : Fin 1) ⟨(i 1).val, idx2_lt1 i⟩)))

/-- The second graph layer's row r against column q of a 256 x 256 matrix `W`. -/
def projArr (A0 A1 : S50000x256.Idx → Elt Ideal .bf16) (A2 A3 : S256x256.Idx → Elt Ideal .bf16)
    (A4 : S1x256.Idx → Elt Ideal .f32) (W : S256x256.Idx → Elt Ideal .bf16) : S50000x256.Idx → Elt Ideal .bf16 := fun i =>
  ∑ k : Fin 256, sage (fun q : Fin 256 => A0 (ix2 ⟨(i 0).val, idx2_lt0 i⟩ q)) (fun q => A1 (ix2 ⟨(i 0).val, idx2_lt0 i⟩ q))
    (fun q => A2 (ix2 q k)) (fun q => A3 (ix2 q k)) (A4 (ix2 (0 : Fin 1) k)) * W (ix2 k ⟨(i 1).val, idx2_lt1 i⟩)

/-- The edge head of edge r from row r of the three edge arrays. -/
def headArr (A0 A1 : S400000x256.Idx → Elt Ideal .bf16) (A2 : S400000x64.Idx → Elt Ideal .f32)
    (A3 : S64x256.Idx → Elt Ideal .bf16) (A4 : S1x256.Idx → Elt Ideal .f32) (A5 : S256x128.Idx → Elt Ideal .bf16)
    (A6 A7 : S1x128.Idx → Elt Ideal .f32) (A8 : S1x1.Idx → Elt Ideal .f32) : S400000x1.Idx → Elt Ideal .f32 := fun i =>
  headSplit (fun k : Fin 256 => A0 (ix2 ⟨(i 0).val, idx2_lt0 i⟩ k)) (fun k => A1 (ix2 ⟨(i 0).val, idx2_lt0 i⟩ k))
    (fun q : Fin 64 => A2 (ix2 ⟨(i 0).val, idx2_lt0 i⟩ q)) (fun q k => A3 (ix2 q k)) (fun k => A4 (ix2 (0 : Fin 1) k))
    (fun k j => A5 (ix2 k j)) (fun j : Fin 128 => A6 (ix2 (0 : Fin 1) j)) (fun j => A7 (ix2 (0 : Fin 1) j))
    (A8 (ix2 (0 : Fin 1) (0 : Fin 1)))

/-! ## Region 0 -/

/-- What point `t` writes back is block `t` of `layer1` of the arrays as the region finds them. -/
theorem flushed0 (c : Dev nD) (t : Fin cfg0.N) :
    (dat0 V c).flushed 5 t = ((cfg0.win 5).blk t).view.read (Elt Ideal)
      (layer1 (V c main_v22) (V c main_v23) (V c main_v24) (V c main_v25) (V c main_v26)) := by
  have ht := lt0 t
  show (cfg0.win 5).cut (grid0.coords t) ((dat0 V c).after 5 t) = _
  rw [after0_5]
  funext y
  obtain ⟨p, j, rfl⟩ : ∃ (p : Fin 2000) (j : Fin 256), y = ix2 p j := ⟨y 0, y 1, eq_ix2 y⟩
  have hr : 2000 * t.val + p.val < 50000 := by have := p.isLt; omega
  refine (out0_apply (iblk0 V c 0 t) (iblk0 V c 1 t) (iblk0 V c 2 t) (iblk0 V c 3 t) (iblk0 V c 4 t) p j).trans ?_
  have h0 : ∀ k : Fin 128, iblk0 V c 0 t (ix2 p k) = V c main_v22 (ix2 ⟨2000 * t.val + p.val, hr⟩ k) :=
    fun k => rd0_0 (V c main_v22) t p k hr
  have h1 : ∀ k : Fin 128, iblk0 V c 1 t (ix2 p k) = V c main_v23 (ix2 ⟨2000 * t.val + p.val, hr⟩ k) :=
    fun k => rd0_1 (V c main_v23) t p k hr
  have h2 : ∀ k : Fin 128, iblk0 V c 2 t (ix2 k j) = V c main_v24 (ix2 k j) := fun k => rd0_2 (V c main_v24) t k j
  have h3 : ∀ k : Fin 128, iblk0 V c 3 t (ix2 k j) = V c main_v25 (ix2 k j) := fun k => rd0_3 (V c main_v25) t k j
  have h4 : iblk0 V c 4 t (ix2 (0 : Fin 1) j) = V c main_v26 (ix2 (0 : Fin 1) j) := rd0_4 (V c main_v26) t 0 j
  rw [rd0_5 _ t p j hr]
  simp only [h0, h1, h2, h3, h4]
  rfl

theorem mem_blk0 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v27).slice (win0_5.rect t)).set ↔ _
  rw [View.set_slice_whole, Rect.mem_set_unit]
  exact Iff.rfl

/-- Row `r` lies in the block of point `r / 2000`. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by rw [show cfg0.N = 25 from N_0]; omega⟩, rfl⟩
  obtain ⟨e0a, e0b, e1a, e1b, e2a, e2b, e3a, e3b, e4a, e4b, e5a, e5b⟩ := idx0 t
  refine ⟨t, flush0_5 t, ?_⟩
  rw [mem_blk0]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

/-- The first region's output array ends holding `layer1` of the arrays it was entered with. -/
theorem final0 (c : Dev nD) : (dat0 V c).arrAt 5 cfg0.N
    = layer1 (V c main_v22) (V c main_v23) (V c main_v24) (V c main_v25) (V c main_v26) :=
  (dat0 V c).arrAt_eq_of_cover 5 _ (fun t _ => flushed0 V c t) cover0

/-! ## Region 1 -/

theorem flushed1_7 (c : Dev nD) (t : Fin cfg1.N) :
    (dat1 V c).flushed 7 t = ((cfg1.win 7).blk t).view.read (Elt Ideal)
      (projArr (V c main_v45) (V c main_v46) (V c main_v47) (V c main_v48) (V c main_v51) (V c main_v49)) := by
  have ht := lt1 t
  show (cfg1.win 7).cut (grid1.coords t) ((dat1 V c).after 7 t) = _
  rw [after1_7]
  funext y
  obtain ⟨p, j, rfl⟩ : ∃ (p : Fin 2000) (j : Fin 256), y = ix2 p j := ⟨y 0, y 1, eq_ix2 y⟩
  have hr : 2000 * t.val + p.val < 50000 := by have := p.isLt; omega
  refine (out1_7_apply (iblk1 V c 0 t) (iblk1 V c 1 t) (iblk1 V c 2 t) (iblk1 V c 3 t) (iblk1 V c 4 t) (iblk1 V c 5 t)
    (iblk1 V c 6 t) p j).trans ?_
  have h0 : ∀ k : Fin 256, iblk1 V c 0 t (ix2 p k) = V c main_v45 (ix2 ⟨2000 * t.val + p.val, hr⟩ k) :=
    fun k => rd1_0 (V c main_v45) t p k hr
  have h1 : ∀ k : Fin 256, iblk1 V c 1 t (ix2 p k) = V c main_v46 (ix2 ⟨2000 * t.val + p.val, hr⟩ k) :=
    fun k => rd1_1 (V c main_v46) t p k hr
  have h2 : ∀ q k : Fin 256, iblk1 V c 2 t (ix2 q k) = V c main_v47 (ix2 q k) := fun q k => rd1_2 (V c main_v47) t q k
  have h3 : ∀ q k : Fin 256, iblk1 V c 3 t (ix2 q k) = V c main_v48 (ix2 q k) := fun q k => rd1_3 (V c main_v48) t q k
  have h4 : ∀ k : Fin 256, iblk1 V c 4 t (ix2 (0 : Fin 1) k) = V c main_v51 (ix2 (0 : Fin 1) k) :=
    fun k => rd1_4 (V c main_v51) t 0 k
  have h5 : ∀ k : Fin 256, iblk1 V c 5 t (ix2 k j) = V c main_v49 (ix2 k j) := fun k => rd1_5 (V c main_v49) t k j
  rw [rd1_7 _ t p j hr]
  simp only [proj, h0, h1, h2, h3, h4, h5]
  rfl

theorem flushed1_8 (c : Dev nD) (t : Fin cfg1.N) :
    (dat1 V c).flushed 8 t = ((cfg1.win 8).blk t).view.read (Elt Ideal)
      (projArr (V c main_v45) (V c main_v46) (V c main_v47) (V c main_v48) (V c main_v51) (V c main_v50)) := by
  have ht := lt1 t
  show (cfg1.win 8).cut (grid1.coords t) ((dat1 V c).after 8 t) = _
  rw [after1_8]
  funext y
  obtain ⟨p, j, rfl⟩ : ∃ (p : Fin 2000) (j : Fin 256), y = ix2 p j := ⟨y 0, y 1, eq_ix2 y⟩
  have hr : 2000 * t.val + p.val < 50000 := by have := p.isLt; omega
  refine (out1_8_apply (iblk1 V c 0 t) (iblk1 V c 1 t) (iblk1 V c 2 t) (iblk1 V c 3 t) (iblk1 V c 4 t) (iblk1 V c 5 t)
    (iblk1 V c 6 t) p j).trans ?_
  have h0 : ∀ k : Fin 256, iblk1 V c 0 t (ix2 p k) = V c main_v45 (ix2 ⟨2000 * t.val + p.val, hr⟩ k) :=
    fun k => rd1_0 (V c main_v45) t p k hr
  have h1 : ∀ k : Fin 256, iblk1 V c 1 t (ix2 p k) = V c main_v46 (ix2 ⟨2000 * t.val + p.val, hr⟩ k) :=
    fun k => rd1_1 (V c main_v46) t p k hr
  have h2 : ∀ q k : Fin 256, iblk1 V c 2 t (ix2 q k) = V c main_v47 (ix2 q k) := fun q k => rd1_2 (V c main_v47) t q k
  have h3 : ∀ q k : Fin 256, iblk1 V c 3 t (ix2 q k) = V c main_v48 (ix2 q k) := fun q k => rd1_3 (V c main_v48) t q k
  have h4 : ∀ k : Fin 256, iblk1 V c 4 t (ix2 (0 : Fin 1) k) = V c main_v51 (ix2 (0 : Fin 1) k) :=
    fun k => rd1_4 (V c main_v51) t 0 k
  have h6 : ∀ k : Fin 256, iblk1 V c 6 t (ix2 k j) = V c main_v50 (ix2 k j) := fun k => rd1_6 (V c main_v50) t k j
  rw [rd1_8 _ t p j hr]
  simp only [proj, h0, h1, h2, h3, h4, h6]
  rfl

theorem mem_blk1_7 (t : Fin cfg1.N) (i : S50000x256.Idx) :
    i ∈ ((cfg1.win 7).blk t).view.set ↔ ∀ a : Fin 2, win1_7.index t a * S2000x256.size a ≤ (i a).val
      ∧ (i a).val < win1_7.index t a * S2000x256.size a + S2000x256.size a := by
  show i ∈ ((View.whole main_v52_0).slice (win1_7.rect t)).set ↔ _
  rw [View.set_slice_whole, Rect.mem_set_unit]
  exact Iff.rfl

theorem mem_blk1_8 (t : Fin cfg1.N) (i : S50000x256.Idx) :
    i ∈ ((cfg1.win 8).blk t).view.set ↔ ∀ a : Fin 2, win1_8.index t a * S2000x256.size a ≤ (i a).val
      ∧ (i a).val < win1_8.index t a * S2000x256.size a + S2000x256.size a := by
  show i ∈ ((View.whole main_v52_1).slice (win1_8.rect t)).set ↔ _
  rw [View.set_slice_whole, Rect.mem_set_unit]
  exact Iff.rfl

theorem cover1_7 (i : S50000x256.Idx) :
    ∃ t : Fin cfg1.N, (cfg1.win 7).flush t = true ∧ i ∈ ((cfg1.win 7).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by rw [show cfg1.N = 25 from N_1]; omega⟩, rfl⟩
  obtain ⟨e0a, e0b, e1a, e1b, e2a, e2b, e3a, e3b, e4a, e4b, e5a, e5b, e6a, e6b, e7a, e7b, e8a, e8b⟩ := idx1 t
  refine ⟨t, flush1_7 t, ?_⟩
  rw [mem_blk1_7]
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * 256 ≤ (i 1).val ∧ (i 1).val < win1_7.index t (1 : Fin 2) * 256 + 256
    omega

theorem cover1_8 (i : S50000x256.Idx) :
    ∃ t : Fin cfg1.N, (cfg1.win 8).flush t = true ∧ i ∈ ((cfg1.win 8).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by rw [show cfg1.N = 25 from N_1]; omega⟩, rfl⟩
  obtain ⟨e0a, e0b, e1a, e1b, e2a, e2b, e3a, e3b, e4a, e4b, e5a, e5b, e6a, e6b, e7a, e7b, e8a, e8b⟩ := idx1 t
  refine ⟨t, flush1_8 t, ?_⟩
  rw [mem_blk1_8]
  intro a
  match a with
  | ⟨0, _⟩ =>
    show win1_8.index t (0 : Fin 2) * 2000 ≤ (i 0).val ∧ (i 0).val < win1_8.index t (0 : Fin 2) * 2000 + 2000
    omega
  | ⟨1, _⟩ =>
    show win1_8.index t (1 : Fin 2) * 256 ≤ (i 1).val ∧ (i 1).val < win1_8.index t (1 : Fin 2) * 256 + 256
    omega

/-- The second region's two output arrays: the same layer against the two 256 x 256 matrices. -/
theorem final1_7 (c : Dev nD) : (dat1 V c).arrAt 7 cfg1.N
    = projArr (V c main_v45) (V c main_v46) (V c main_v47) (V c main_v48) (V c main_v51) (V c main_v49) :=
  (dat1 V c).arrAt_eq_of_cover 7 _ (fun t _ => flushed1_7 V c t) cover1_7

theorem final1_8 (c : Dev nD) : (dat1 V c).arrAt 8 cfg1.N
    = projArr (V c main_v45) (V c main_v46) (V c main_v47) (V c main_v48) (V c main_v51) (V c main_v50) :=
  (dat1 V c).arrAt_eq_of_cover 8 _ (fun t _ => flushed1_8 V c t) cover1_8

/-! ## Region 2 -/

theorem flushed2 (c : Dev nD) (t : Fin cfg2.N) :
    (dat2 V c).flushed 9 t = ((cfg2.win 9).blk t).view.read (Elt Ideal)
      (headArr (V c main_v59) (V c main_v66) (V c main_arg2) (V c main_v68) (V c main_v70) (V c main_v69) (V c main_v71)
        (V c main_v67) (V c main_v72)) := by
  have ht := lt2 t
  show (cfg2.win 9).cut (grid2.coords t) ((dat2 V c).after 9 t) = _
  rw [after2_9]
  funext y
  obtain ⟨p, u, rfl⟩ : ∃ (p : Fin 4000) (u : Fin 1), y = ix2 p u := ⟨y 0, y 1, eq_ix2 y⟩
  obtain rfl : u = 0 := Subsingleton.elim _ _
  have hr : 4000 * t.val + p.val < 400000 := by have := p.isLt; omega
  refine (out2_apply (iblk2 V c 0 t) (iblk2 V c 1 t) (iblk2 V c 2 t) (iblk2 V c 3 t) (iblk2 V c 4 t) (iblk2 V c 5 t)
    (iblk2 V c 6 t) (iblk2 V c 7 t) (iblk2 V c 8 t) p).trans ?_
  have h0 : ∀ k : Fin 256, iblk2 V c 0 t (ix2 p k) = V c main_v59 (ix2 ⟨4000 * t.val + p.val, hr⟩ k) :=
    fun k => rd2_0 (V c main_v59) t p k hr
  have h1 : ∀ k : Fin 256, iblk2 V c 1 t (ix2 p k) = V c main_v66 (ix2 ⟨4000 * t.val + p.val, hr⟩ k) :=
    fun k => rd2_1 (V c main_v66) t p k hr
  have h2 : ∀ q : Fin 64, iblk2 V c 2 t (ix2 p q) = V c main_arg2 (ix2 ⟨4000 * t.val + p.val, hr⟩ q) :=
    fun q => rd2_2 (V c main_arg2) t p q hr
  have h3 : ∀ (q : Fin 64) (k : Fin 256), iblk2 V c 3 t (ix2 q k) = V c main_v68 (ix2 q k) := fun q k => rd2_3 (V c main_v68) t q k
  have h4 : ∀ k : Fin 256, iblk2 V c 4 t (ix2 (0 : Fin 1) k) = V c main_v70 (ix2 (0 : Fin 1) k) := fun k => rd2_4 (V c main_v70) t 0 k
  have h5 : ∀ (k : Fin 256) (j : Fin 128), iblk2 V c 5 t (ix2 k j) = V c main_v69 (ix2 k j) := fun k j => rd2_5 (V c main_v69) t k j
  have h6 : ∀ j : Fin 128, iblk2 V c 6 t (ix2 (0 : Fin 1) j) = V c main_v71 (ix2 (0 : Fin 1) j) := fun j => rd2_6 (V c main_v71) t 0 j
  have h7 : ∀ j : Fin 128, iblk2 V c 7 t (ix2 (0 : Fin 1) j) = V c main_v67 (ix2 (0 : Fin 1) j) := fun j => rd2_7 (V c main_v67) t 0 j
  have h8 : iblk2 V c 8 t (ix2 (0 : Fin 1) (0 : Fin 1)) = V c main_v72 (ix2 (0 : Fin 1) (0 : Fin 1)) := rd2_8 (V c main_v72) t 0 0
  rw [rd2_9 _ t p 0 hr]
  simp only [h0, h1, h2, h3, h4, h5, h6, h7, h8]
  rfl

theorem mem_blk2 (t : Fin cfg2.N) (i : S400000x1.Idx) :
    i ∈ ((cfg2.win 9).blk t).view.set ↔ ∀ a : Fin 2, win2_9.index t a * S4000x1.size a ≤ (i a).val
      ∧ (i a).val < win2_9.index t a * S4000x1.size a + S4000x1.size a := by
  show i ∈ ((View.whole main_v73).slice (win2_9.rect t)).set ↔ _
  rw [View.set_slice_whole, Rect.mem_set_unit]
  exact Iff.rfl

theorem cover2 (i : S400000x1.Idx) :
    ∃ t : Fin cfg2.N, (cfg2.win 9).flush t = true ∧ i ∈ ((cfg2.win 9).blk t).view.set := by
  have hi0 : (i 0).val < 400000 := (i 0).isLt
  have hi1 : (i 1).val < 1 := (i 1).isLt
  obtain ⟨t, ht⟩ : ∃ t : Fin cfg2.N, t.val = (i 0).val / 4000 :=
    ⟨⟨(i 0).val / 4000, by rw [show cfg2.N = 100 from N_2]; omega⟩, rfl⟩
  obtain ⟨e0a, e0b, e1a, e1b, e2a, e2b, e3a, e3b, e4a, e4b, e5a, e5b, e6a, e6b, e7a, e7b, e8a, e8b, e9a, e9b⟩ := idx2 t
  refine ⟨t, flush2_9 t, ?_⟩
  rw [mem_blk2]
  intro a
  match a with
  | ⟨0, _⟩ =>
    show win2_9.index t (0 : Fin 2) * 4000 ≤ (i 0).val ∧ (i 0).val < win2_9.index t (0 : Fin 2) * 4000 + 4000
    omega
  | ⟨1, _⟩ =>
    show win2_9.index t (1 : Fin 2) * 1 ≤ (i 1).val ∧ (i 1).val < win2_9.index t (1 : Fin 2) * 1 + 1
    omega

/-- The third region's output array ends holding `headArr` of the arrays it was entered with. -/
theorem final2 (c : Dev nD) : (dat2 V c).arrAt 9 cfg2.N
    = headArr (V c main_v59) (V c main_v66) (V c main_arg2) (V c main_v68) (V c main_v70) (V c main_v69) (V c main_v71)
        (V c main_v67) (V c main_v72) :=
  (dat2 V c).arrAt_eq_of_cover 9 _ (fun t _ => flushed2 V c t) cover2

end Cert.EdgeNet.Finals

end
-- ==== Proof.KStages.lean ====
/-
  The kernel program's host side, as named functions of arrays.

  Around its three pallas_calls the program runs plain host operations: it cuts the two rows of the edge index array
  (`srcIds`, `dstIds`), wraps negative ids by the number of nodes (`wrapCol`), counts each node's incoming edges
  (`degs`), and averages the source rows gathered along the edges onto their destination nodes (`meanAgg128`,
  `meanAgg256`: scatter-add of gathered rows divided by max(degree, 1)).  These are kept as opaque functions: the
  reference applies the very same operations, so they are never opened.  On top of them the whole result is one
  function of the fifteen argument arrays (`hiddenK`, `projSrcK`, `projDstK`, `logitsK`, `resultK`), built from the
  three regions' whole-array functions.
-/
import proofs.«137966_j70282844831970_2_alg».proof.Proof.Finals

set_option maxRecDepth 16384

noncomputable section

namespace Cert.EdgeNet.K

open Idealize.ShloMosaic Idealize.ShloMosaic.ValueIdx Cert.KernelIdeal Cert.KernelIdeal.Gen Cert.EdgeNet Cert.EdgeNet.Finals

abbrev AI (S : Shape) := (⟨S, .i32⟩ : BufTy).Contents (Elt Ideal)
abbrev AF (S : Shape) := (⟨S, .f32⟩ : BufTy).Contents (Elt Ideal)
abbrev AB (S : Shape) := (⟨S, .bf16⟩ : BufTy).Contents (Elt Ideal)

/-- An f32 array recast to bf16 (the identity on the extended reals). -/
abbrev bf16of {S : Shape} (x : AF S) : AB S := truncf (F := Ideal) .bf16 (x : FVec Ideal S .f32) bitsLt_bf16_f32

/-- Row 0 of the edge index array: the edges' source node ids. -/
def srcIds (a1 : AI S2x400000) : AI S400000 :=
  shapeCast S400000 (extractStridedSlice S1x400000 ![0, 0] a1 slices_S2x400000_S1x400000_0_0) shapeCasts_S1x400000_S400000

/-- Row 1: the destination node ids. -/
def dstIds (a1 : AI S2x400000) : AI S400000 :=
  shapeCast S400000 (extractStridedSlice S1x400000 ![1, 0] a1 slices_S2x400000_S1x400000_1_0) shapeCasts_S1x400000_S400000

/-- An id vector as a column of start indices, negative ids wrapped by the number of nodes. -/
def wrapCol (v : AI S400000) : AI S400000x1 :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 50000#32))) v)

/-- An id vector as a column of start indices, as it is. -/
def rawCol (v : AI S400000) : AI S400000x1 := broadcastInDim S400000x1 ![0] bcast_S400000_S400000x1_0 v

/-- The number of edges arriving at each node. -/
def degs (d : AI S400000) : AF S50000x1 :=
  Host.scatterAdd (F := Ideal) scatter_S50000x1_S400000x1_S400000x1_1_0_0_1
    (broadcastInDim S50000x1 ![] bcast_S_S50000x1 (constant (F := Ideal) S_ .f32 0x00000000#32)) (rawCol d)
    (broadcastInDim S400000x1 ![] bcast_S_S400000x1 (constant (F := Ideal) S_ .f32 0x3F800000#32))

/-- Mean of the source rows of `x` over the edges arriving at each node, 128 columns. -/
def meanAgg128 (x : AF S50000x128) (s d : AI S400000) (dg : AF S50000x1) : AF S50000x128 :=
  Host.divf (F := Ideal)
    (Host.scatterAdd (F := Ideal) scatter_S50000x128_S400000x1_S400000x128_1_0_0_1
      (broadcastInDim S50000x128 ![] bcast_S_S50000x128 (constant (F := Ideal) S_ .f32 0x00000000#32)) (rawCol d)
      (Host.gather gather_S50000x128_S400000x1_S400000x128_1_0_n_n_0_1_1128 x (wrapCol s)))
    (broadcastInDim S50000x128 ![0, 1] bcast_S50000x1_S50000x128_0_1
      (maximumf dg (broadcastInDim S50000x1 ![] bcast_S_S50000x1 (constant (F := Ideal) S_ .f32 0x3F800000#32))))

/-- The same with 256 columns. -/
def meanAgg256 (x : AF S50000x256) (s d : AI S400000) (dg : AF S50000x1) : AF S50000x256 :=
  Host.divf (F := Ideal)
    (Host.scatterAdd (F := Ideal) scatter_S50000x256_S400000x1_S400000x256_1_0_0_1
      (broadcastInDim S50000x256 ![] bcast_S_S50000x256 (constant (F := Ideal) S_ .f32 0x00000000#32)) (rawCol d)
      (Host.gather gather_S50000x256_S400000x1_S400000x256_1_0_n_n_0_1_1256 x (wrapCol s)))
    (broadcastInDim S50000x256 ![0, 1] bcast_S50000x1_S50000x256_0_1
      (maximumf dg (broadcastInDim S50000x1 ![] bcast_S_S50000x1 (constant (F := Ideal) S_ .f32 0x3F800000#32))))

/-- The first layer's output array. -/
def hiddenK (a0 : AF S50000x128) (a1 : AI S2x400000) (a3 a4 : AF S128x256) (a5 : AF S256) : AF S50000x256 :=
  layer1 (bf16of (meanAgg128 a0 (srcIds a1) (dstIds a1) (degs (dstIds a1))))
    (bf16of a0) (bf16of a3) (bf16of a4)
    (shapeCast S1x256 a5 shapeCasts_S256_S1x256)

/-- The second layer's rows against a 256-row band of the head's first weight matrix. -/
def projK (h : AF S50000x256) (a1 : AI S2x400000) (a6 a7 : AF S256x256) (a8 : AF S256) (band : AF S256x256) :
    AB S50000x256 :=
  projArr (bf16of (meanAgg256 h (srcIds a1) (dstIds a1) (degs (dstIds a1))))
    (bf16of h) (bf16of a6) (bf16of a7)
    (shapeCast S1x256 a8 shapeCasts_S256_S1x256) (bf16of band)

/-- The head's output column. -/
def logitsK (ps pd : AB S50000x256) (a1 : AI S2x400000) (a2 : AF S400000x64)
    (a9 : AF S576x256) (a10 : AF S256) (a11 : AF S256x128) (a12 : AF S128) (a13 : AF S128x1) (a14 : AF S1) : AF S400000x1 :=
  headArr (Host.gather gather_S50000x256_S400000x1_S400000x256_1_0_n_n_0_1_1256 ps (wrapCol (srcIds a1)))
    (Host.gather gather_S50000x256_S400000x1_S400000x256_1_0_n_n_0_1_1256 pd (wrapCol (dstIds a1)))
    a2 (bf16of (extractStridedSlice S64x256 ![512, 0] a9 slices_S576x256_S64x256_512_0))
    (shapeCast S1x256 a10 shapeCasts_S256_S1x256) (bf16of a11)
    (shapeCast S1x128 a12 shapeCasts_S128_S1x128) (transpose S1x128 [1, 0] a13 transposes_S128x1_S1x128_1_0)
    (shapeCast S1x1 a14 shapeCasts_S1_S1x1)

end Cert.EdgeNet.K

end
-- ==== Proof.KHost.lean ====
/-
  The contents of the buffers at each of the seven segment boundaries of the kernel program, read back to the
  argument arrays.

  A stretch of host operations applies its operations to the contents at its start; a region replaces the arrays of
  its windows by what its write-backs leave (the whole-array functions of Finals.lean) and keeps every other buffer.
  Walking the boundaries in order: after the first stretch the first region's windows hold the mean aggregation of
  the node features, the features and the weights; the first region leaves `hiddenK`; the second stretch aggregates
  it again and cuts the head's first weight matrix into its three bands of rows; the second region leaves the two
  per-node partial products; the third stretch gathers them along the edges; the third region leaves the head's
  output column, which the last operation recasts to a vector.  So the result buffer ends at `resultK` of the
  fifteen arguments.
-/
import proofs.«137966_j70282844831970_2_alg».proof.Proof.KStages
import Idealize.ShloMosaic.Lib.StableHlo.Run

set_option maxRecDepth 16384
-- the notations below abbreviate the argument arrays' launch contents over the section's variables
set_option quotPrecheck false

noncomputable section

namespace Cert.EdgeNet.KHost

open Idealize.ShloMosaic Idealize.ShloMosaic.TcCoe Idealize.ShloMosaic.Tactic Idealize.SL.Sem Idealize.ShloMosaic.StableHlo
open Cert.KernelIdeal Cert.KernelIdeal.Gen Cert.EdgeNet Cert.EdgeNet.Finals Cert.EdgeNet.K

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)

/-- The first 256 rows of the head's first weight matrix. -/
abbrev band0 (x : AF S576x256) : AF S256x256 := extractStridedSlice S256x256 ![0, 0] x slices_S576x256_S256x256_0_0
/-- Its rows 256 … 511. -/
abbrev band1 (x : AF S576x256) : AF S256x256 := extractStridedSlice S256x256 ![256, 0] x slices_S576x256_S256x256_256_0
/-- Its last 64 rows. -/
abbrev band2 (x : AF S576x256) : AF S64x256 := extractStridedSlice S64x256 ![512, 0] x slices_S576x256_S64x256_512_0

/-! ## After the first stretch -/

theorem b1_v1 : W1 m ρ c (Proc.devRef .tc main_v1) = srcIds a1 := by
  show StableHlo.after hostOps0 (W0 m ρ c) _ = _
  after_results_simp
  try rfl
theorem b1_v3 : W1 m ρ c (Proc.devRef .tc main_v3) = dstIds a1 := by
  show StableHlo.after hostOps0 (W0 m ρ c) _ = _
  after_results_simp
  try rfl
theorem b1_v7 : W1 m ρ c (Proc.devRef .tc main_v7) = degs (dstIds a1) := by
  show StableHlo.after hostOps0 (W0 m ρ c) _ = _
  after_results_simp
  try rfl
theorem b1_v22 : W1 m ρ c (Proc.devRef .tc main_v22)
    = bf16of (meanAgg128 a0 (srcIds a1) (dstIds a1) (degs (dstIds a1))) := by
  show StableHlo.after hostOps0 (W0 m ρ c) _ = _
  after_results_simp
  try rfl
theorem b1_v23 : W1 m ρ c (Proc.devRef .tc main_v23) = bf16of a0 := by
  show StableHlo.after hostOps0 (W0 m ρ c) _ = _
  after_results_simp
  try rfl
theorem b1_v24 : W1 m ρ c (Proc.devRef .tc main_v24) = bf16of a3 := by
  show StableHlo.after hostOps0 (W0 m ρ c) _ = _
  after_results_simp
  try rfl
theorem b1_v25 : W1 m ρ c (Proc.devRef .tc main_v25) = bf16of a4 := by
  show StableHlo.after hostOps0 (W0 m ρ c) _ = _
  after_results_simp
  try rfl
theorem b1_v26 : W1 m ρ c (Proc.devRef .tc main_v26) = shapeCast S1x256 a5 shapeCasts_S256_S1x256 := by
  show StableHlo.after hostOps0 (W0 m ρ c) _ = _
  after_results_simp
  try rfl
theorem b1_a2 : W1 m ρ c (Proc.devRef .tc main_arg2) = a2 := by
  show StableHlo.after hostOps0 (W0 m ρ c) _ = _
  after_results_simp
  try rfl
theorem b1_a6 : W1 m ρ c (Proc.devRef .tc main_arg6) = a6 := by
  show StableHlo.after hostOps0 (W0 m ρ c) _ = _
  after_results_simp
  try rfl
theorem b1_a7 : W1 m ρ c (Proc.devRef .tc main_arg7) = a7 := by
  show StableHlo.after hostOps0 (W0 m ρ c) _ = _
  after_results_simp
  try rfl
theorem b1_a8 : W1 m ρ c (Proc.devRef .tc main_arg8) = a8 := by
  show StableHlo.after hostOps0 (W0 m ρ c) _ = _
  after_results_simp
  try rfl
theorem b1_a9 : W1 m ρ c (Proc.devRef .tc main_arg9) = a9 := by
  show StableHlo.after hostOps0 (W0 m ρ c) _ = _
  after_results_simp
  try rfl
theorem b1_a10 : W1 m ρ c (Proc.devRef .tc main_arg10) = a10 := by
  show StableHlo.after hostOps0 (W0 m ρ c) _ = _
  after_results_simp
  try rfl
theorem b1_a11 : W1 m ρ c (Proc.devRef .tc main_arg11) = a11 := by
  show StableHlo.after hostOps0 (W0 m ρ c) _ = _
  after_results_simp
  try rfl
theorem b1_a12 : W1 m ρ c (Proc.devRef .tc main_arg12) = a12 := by
  show StableHlo.after hostOps0 (W0 m ρ c) _ = _
  after_results_simp
  try rfl
theorem b1_a13 : W1 m ρ c (Proc.devRef .tc main_arg13) = a13 := by
  show StableHlo.after hostOps0 (W0 m ρ c) _ = _
  after_results_simp
  try rfl
theorem b1_a14 : W1 m ρ c (Proc.devRef .tc main_arg14) = a14 := by
  show StableHlo.after hostOps0 (W0 m ρ c) _ = _
  after_results_simp
  try rfl

/-! ## After the first region -/

theorem b2_v27 : W2 m ρ c (Proc.devRef .tc main_v27) = hiddenK a0 a1 a3 a4 a5 := by
  refine (W2_arr m ρ c 5).trans ?_
  rw [final0 (V1 m ρ) c, show V1 m ρ c main_v22 = _ from b1_v22 m ρ c, show V1 m ρ c main_v23 = _ from b1_v23 m ρ c,
    show V1 m ρ c main_v24 = _ from b1_v24 m ρ c, show V1 m ρ c main_v25 = _ from b1_v25 m ρ c,
    show V1 m ρ c main_v26 = _ from b1_v26 m ρ c]
  rfl
theorem b2_v1 : W2 m ρ c (Proc.devRef .tc main_v1) = srcIds a1 := (W2_of_ne m ρ c main_v1 (by decide)).trans (b1_v1 m ρ c)
theorem b2_v3 : W2 m ρ c (Proc.devRef .tc main_v3) = dstIds a1 := (W2_of_ne m ρ c main_v3 (by decide)).trans (b1_v3 m ρ c)
theorem b2_v7 : W2 m ρ c (Proc.devRef .tc main_v7) = degs (dstIds a1) := (W2_of_ne m ρ c main_v7 (by decide)).trans (b1_v7 m ρ c)
theorem b2_a2 : W2 m ρ c (Proc.devRef .tc main_arg2) = a2 := (W2_of_ne m ρ c main_arg2 (by decide)).trans (b1_a2 m ρ c)
theorem b2_a6 : W2 m ρ c (Proc.devRef .tc main_arg6) = a6 := (W2_of_ne m ρ c main_arg6 (by decide)).trans (b1_a6 m ρ c)
theorem b2_a7 : W2 m ρ c (Proc.devRef .tc main_arg7) = a7 := (W2_of_ne m ρ c main_arg7 (by decide)).trans (b1_a7 m ρ c)
theorem b2_a8 : W2 m ρ c (Proc.devRef .tc main_arg8) = a8 := (W2_of_ne m ρ c main_arg8 (by decide)).trans (b1_a8 m ρ c)
theorem b2_a9 : W2 m ρ c (Proc.devRef .tc main_arg9) = a9 := (W2_of_ne m ρ c main_arg9 (by decide)).trans (b1_a9 m ρ c)
theorem b2_a10 : W2 m ρ c (Proc.devRef .tc main_arg10) = a10 := (W2_of_ne m ρ c main_arg10 (by decide)).trans (b1_a10 m ρ c)
theorem b2_a11 : W2 m ρ c (Proc.devRef .tc main_arg11) = a11 := (W2_of_ne m ρ c main_arg11 (by decide)).trans (b1_a11 m ρ c)
theorem b2_a12 : W2 m ρ c (Proc.devRef .tc main_arg12) = a12 := (W2_of_ne m ρ c main_arg12 (by decide)).trans (b1_a12 m ρ c)
theorem b2_a13 : W2 m ρ c (Proc.devRef .tc main_arg13) = a13 := (W2_of_ne m ρ c main_arg13 (by decide)).trans (b1_a13 m ρ c)
theorem b2_a14 : W2 m ρ c (Proc.devRef .tc main_arg14) = a14 := (W2_of_ne m ρ c main_arg14 (by decide)).trans (b1_a14 m ρ c)

/-! ## After the second stretch -/

theorem b3_v45 : W3 m ρ c (Proc.devRef .tc main_v45)
    = bf16of (meanAgg256 (hiddenK a0 a1 a3 a4 a5) (srcIds a1) (dstIds a1) (degs (dstIds a1))) := by
  show StableHlo.after hostOps1 (W2 m ρ c) _ = _
  after_results_simp
  rw [b2_v27 m ρ c, b2_v1 m ρ c, b2_v3 m ρ c, b2_v7 m ρ c]
  rfl
theorem b3_v46 : W3 m ρ c (Proc.devRef .tc main_v46) = bf16of (hiddenK a0 a1 a3 a4 a5) := by
  show StableHlo.after hostOps1 (W2 m ρ c) _ = _
  after_results_simp
  rw [b2_v27 m ρ c]
theorem b3_v47 : W3 m ρ c (Proc.devRef .tc main_v47) = bf16of a6 := by
  show StableHlo.after hostOps1 (W2 m ρ c) _ = _
  after_results_simp
  rw [b2_a6 m ρ c]
theorem b3_v48 : W3 m ρ c (Proc.devRef .tc main_v48) = bf16of a7 := by
  show StableHlo.after hostOps1 (W2 m ρ c) _ = _
  after_results_simp
  rw [b2_a7 m ρ c]
theorem b3_v51 : W3 m ρ c (Proc.devRef .tc main_v51) = shapeCast S1x256 a8 shapeCasts_S256_S1x256 := by
  show StableHlo.after hostOps1 (W2 m ρ c) _ = _
  after_results_simp
  rw [b2_a8 m ρ c]
  try rfl
theorem b3_v49 : W3 m ρ c (Proc.devRef .tc main_v49) = bf16of (band0 a9) := by
  show StableHlo.after hostOps1 (W2 m ρ c) _ = _
  after_results_simp
  rw [b2_a9 m ρ c]
theorem b3_v50 : W3 m ρ c (Proc.devRef .tc main_v50) = bf16of (band1 a9) := by
  show StableHlo.after hostOps1 (W2 m ρ c) _ = _
  after_results_simp
  rw [b2_a9 m ρ c]
theorem b3_v44 : W3 m ρ c (Proc.devRef .tc main_v44) = band2 a9 := by
  show StableHlo.after hostOps1 (W2 m ρ c) _ = _
  after_results_simp
  rw [b2_a9 m ρ c]
theorem b3_v1 : W3 m ρ c (Proc.devRef .tc main_v1) = srcIds a1 := by
  show StableHlo.after hostOps1 (W2 m ρ c) _ = _
  after_results_simp
  exact b2_v1 m ρ c
theorem b3_v3 : W3 m ρ c (Proc.devRef .tc main_v3) = dstIds a1 := by
  show StableHlo.after hostOps1 (W2 m ρ c) _ = _
  after_results_simp
  exact b2_v3 m ρ c
theorem b3_a2 : W3 m ρ c (Proc.devRef .tc main_arg2) = a2 := by
  show StableHlo.after hostOps1 (W2 m ρ c) _ = _
  after_results_simp
  exact b2_a2 m ρ c
theorem b3_a10 : W3 m ρ c (Proc.devRef .tc main_arg10) = a10 := by
  show StableHlo.after hostOps1 (W2 m ρ c) _ = _
  after_results_simp
  exact b2_a10 m ρ c
theorem b3_a11 : W3 m ρ c (Proc.devRef .tc main_arg11) = a11 := by
  show StableHlo.after hostOps1 (W2 m ρ c) _ = _
  after_results_simp
  exact b2_a11 m ρ c
theorem b3_a12 : W3 m ρ c (Proc.devRef .tc main_arg12) = a12 := by
  show StableHlo.after hostOps1 (W2 m ρ c) _ = _
  after_results_simp
  exact b2_a12 m ρ c
theorem b3_a13 : W3 m ρ c (Proc.devRef .tc main_arg13) = a13 := by
  show StableHlo.after hostOps1 (W2 m ρ c) _ = _
  after_results_simp
  exact b2_a13 m ρ c
theorem b3_a14 : W3 m ρ c (Proc.devRef .tc main_arg14) = a14 := by
  show StableHlo.after hostOps1 (W2 m ρ c) _ = _
  after_results_simp
  exact b2_a14 m ρ c

/-! ## After the second region -/

theorem b4_v52_0 : W4 m ρ c (Proc.devRef .tc main_v52_0) = projK (hiddenK a0 a1 a3 a4 a5) a1 a6 a7 a8 (band0 a9) := by
  refine (W4_arr m ρ c 7).trans ?_
  rw [final1_7 (V3 m ρ) c, show V3 m ρ c main_v45 = _ from b3_v45 m ρ c, show V3 m ρ c main_v46 = _ from b3_v46 m ρ c,
    show V3 m ρ c main_v47 = _ from b3_v47 m ρ c, show V3 m ρ c main_v48 = _ from b3_v48 m ρ c,
    show V3 m ρ c main_v51 = _ from b3_v51 m ρ c, show V3 m ρ c main_v49 = _ from b3_v49 m ρ c]
  rfl
theorem b4_v52_1 : W4 m ρ c (Proc.devRef .tc main_v52_1) = projK (hiddenK a0 a1 a3 a4 a5) a1 a6 a7 a8 (band1 a9) := by
  refine (W4_arr m ρ c 8).trans ?_
  rw [final1_8 (V3 m ρ) c, show V3 m ρ c main_v45 = _ from b3_v45 m ρ c, show V3 m ρ c main_v46 = _ from b3_v46 m ρ c,
    show V3 m ρ c main_v47 = _ from b3_v47 m ρ c, show V3 m ρ c main_v48 = _ from b3_v48 m ρ c,
    show V3 m ρ c main_v51 = _ from b3_v51 m ρ c, show V3 m ρ c main_v50 = _ from b3_v50 m ρ c]
  rfl
theorem b4_v1 : W4 m ρ c (Proc.devRef .tc main_v1) = srcIds a1 := (W4_of_ne m ρ c main_v1 (by decide)).trans (b3_v1 m ρ c)
theorem b4_v3 : W4 m ρ c (Proc.devRef .tc main_v3) = dstIds a1 := (W4_of_ne m ρ c main_v3 (by decide)).trans (b3_v3 m ρ c)
theorem b4_v44 : W4 m ρ c (Proc.devRef .tc main_v44) = band2 a9 := (W4_of_ne m ρ c main_v44 (by decide)).trans (b3_v44 m ρ c)
theorem b4_a2 : W4 m ρ c (Proc.devRef .tc main_arg2) = a2 := (W4_of_ne m ρ c main_arg2 (by decide)).trans (b3_a2 m ρ c)
theorem b4_a10 : W4 m ρ c (Proc.devRef .tc main_arg10) = a10 := (W4_of_ne m ρ c main_arg10 (by decide)).trans (b3_a10 m ρ c)
theorem b4_a11 : W4 m ρ c (Proc.devRef .tc main_arg11) = a11 := (W4_of_ne m ρ c main_arg11 (by decide)).trans (b3_a11 m ρ c)
theorem b4_a12 : W4 m ρ c (Proc.devRef .tc main_arg12) = a12 := (W4_of_ne m ρ c main_arg12 (by decide)).trans (b3_a12 m ρ c)
theorem b4_a13 : W4 m ρ c (Proc.devRef .tc main_arg13) = a13 := (W4_of_ne m ρ c main_arg13 (by decide)).trans (b3_a13 m ρ c)
theorem b4_a14 : W4 m ρ c (Proc.devRef .tc main_arg14) = a14 := (W4_of_ne m ρ c main_arg14 (by decide)).trans (b3_a14 m ρ c)

/-! ## After the third stretch -/

theorem b5_v59 : W5 m ρ c (Proc.devRef .tc main_v59)
    = Host.gather gather_S50000x256_S400000x1_S400000x256_1_0_n_n_0_1_1256
        (projK (hiddenK a0 a1 a3 a4 a5) a1 a6 a7 a8 (band0 a9)) (wrapCol (srcIds a1)) := by
  show StableHlo.after hostOps2 (W4 m ρ c) _ = _
  after_results_simp
  rw [b4_v52_0 m ρ c, b4_v1 m ρ c]
  rfl
theorem b5_v66 : W5 m ρ c (Proc.devRef .tc main_v66)
    = Host.gather gather_S50000x256_S400000x1_S400000x256_1_0_n_n_0_1_1256
        (projK (hiddenK a0 a1 a3 a4 a5) a1 a6 a7 a8 (band1 a9)) (wrapCol (dstIds a1)) := by
  show StableHlo.after hostOps2 (W4 m ρ c) _ = _
  after_results_simp
  rw [b4_v52_1 m ρ c, b4_v3 m ρ c]
  rfl
theorem b5_a2 : W5 m ρ c (Proc.devRef .tc main_arg2) = a2 := by
  show StableHlo.after hostOps2 (W4 m ρ c) _ = _
  after_results_simp
  exact b4_a2 m ρ c
theorem b5_v68 : W5 m ρ c (Proc.devRef .tc main_v68) = bf16of (band2 a9) := by
  show StableHlo.after hostOps2 (W4 m ρ c) _ = _
  after_results_simp
  rw [b4_v44 m ρ c]
theorem b5_v70 : W5 m ρ c (Proc.devRef .tc main_v70) = shapeCast S1x256 a10 shapeCasts_S256_S1x256 := by
  show StableHlo.after hostOps2 (W4 m ρ c) _ = _
  after_results_simp
  rw [b4_a10 m ρ c]
  try rfl
theorem b5_v69 : W5 m ρ c (Proc.devRef .tc main_v69) = bf16of a11 := by
  show StableHlo.after hostOps2 (W4 m ρ c) _ = _
  after_results_simp
  rw [b4_a11 m ρ c]
theorem b5_v71 : W5 m ρ c (Proc.devRef .tc main_v71) = shapeCast S1x128 a12 shapeCasts_S128_S1x128 := by
  show StableHlo.after hostOps2 (W4 m ρ c) _ = _
  after_results_simp
  rw [b4_a12 m ρ c]
  try rfl
theorem b5_v67 : W5 m ρ c (Proc.devRef .tc main_v67) = transpose S1x128 [1, 0] a13 transposes_S128x1_S1x128_1_0 := by
  show StableHlo.after hostOps2 (W4 m ρ c) _ = _
  after_results_simp
  rw [b4_a13 m ρ c]
theorem b5_v72 : W5 m ρ c (Proc.devRef .tc main_v72) = shapeCast S1x1 a14 shapeCasts_S1_S1x1 := by
  show StableHlo.after hostOps2 (W4 m ρ c) _ = _
  after_results_simp
  rw [b4_a14 m ρ c]
  try rfl

/-! ## After the third region, and the result -/

theorem b6_v73 : W6 m ρ c (Proc.devRef .tc main_v73)
    = logitsK (projK (hiddenK a0 a1 a3 a4 a5) a1 a6 a7 a8 (band0 a9)) (projK (hiddenK a0 a1 a3 a4 a5) a1 a6 a7 a8 (band1 a9))
        a1 a2 a9 a10 a11 a12 a13 a14 := by
  refine (W6_arr m ρ c 9).trans ?_
  rw [final2 (V5 m ρ) c, show V5 m ρ c main_v59 = _ from b5_v59 m ρ c, show V5 m ρ c main_v66 = _ from b5_v66 m ρ c,
    show V5 m ρ c main_arg2 = _ from b5_a2 m ρ c, show V5 m ρ c main_v68 = _ from b5_v68 m ρ c,
    show V5 m ρ c main_v70 = _ from b5_v70 m ρ c, show V5 m ρ c main_v69 = _ from b5_v69 m ρ c,
    show V5 m ρ c main_v71 = _ from b5_v71 m ρ c, show V5 m ρ c main_v67 = _ from b5_v67 m ρ c,
    show V5 m ρ c main_v72 = _ from b5_v72 m ρ c]
  rfl

/-- The kernel program's result as one function of the fifteen argument arrays. -/
def resultK (x0 : AF S50000x128) (x1 : AI S2x400000) (x2 : AF S400000x64) (x3 x4 : AF S128x256) (x5 : AF S256)
    (x6 x7 : AF S256x256) (x8 : AF S256) (x9 : AF S576x256) (x10 : AF S256) (x11 : AF S256x128) (x12 : AF S128)
    (x13 : AF S128x1) (x14 : AF S1) : AF S400000 :=
  shapeCast S400000
    (logitsK (projK (hiddenK x0 x1 x3 x4 x5) x1 x6 x7 x8 (band0 x9)) (projK (hiddenK x0 x1 x3 x4 x5) x1 x6 x7 x8 (band1 x9))
      x1 x2 x9 x10 x11 x12 x13 x14) shapeCasts_S400000x1_S400000

/-- The result buffer at the last boundary. -/
theorem result_eq : W7 m ρ c (Proc.devRef .tc main_v74) = resultK a0 a1 a2 a3 a4 a5 a6 a7 a8 a9 a10 a11 a12 a13 a14 := by
  show StableHlo.after hostOps3 (W6 m ρ c) _ = _
  after_results
  rw [b6_v73 m ρ c]
  rfl

end Cert.EdgeNet.KHost

end
-- ==== Proof.LibLeadingAxis.lean ====
/-
  Gather and accumulating scatter along the LEADING axis, read at coordinates (any extents).

  A start index is one scalar per update row: the indices are an array [E, 1] whose second axis is the index vector.
  * gather of a vector [N] (result [E]) and of the rows of a matrix [N, C] (result [E, C]): entry e (or (e, f)) is the
    operand at row clampRow (idx (e, 0)) (and column f): the start read signed and clamped into [0, N-1];
  * scatter-add into a vector [N] from updates [E], and into a matrix [N, C] from update rows [E, C], at the ideal
    instance: entry n (or (n, f)) is the operand's entry plus the sum over e of the updates whose start index, read
    signed and NOT clamped, is exactly n; an update whose index is outside [0, N) adds nothing.
-/
import Idealize.ShloMosaic.Lib.ValueIdx
import Idealize.ShloMosaic.PureOps.Ideal.Laws

noncomputable section

namespace Idealize.ShloMosaic.LeadingAxis

open Idealize.ShloMosaic Idealize.ShloMosaic.ValueIdx

/-- The row a start index names for a gather: read as a signed integer and clamped into [0, N-1]. -/
def clampRow (N : Nat) (hN : 0 < N) {w : Nat} (b : BitVec w) : Fin N := ⟨min b.toInt.toNat (N - 1), by omega⟩

/-- A sum over the index set of a rank-1 shape is the sum over its one coordinate. -/
theorem sum_idx1 {M : Type*} [AddCommMonoid M] {n : Nat} (g : (⟨1, ![n]⟩ : Shape).Idx → M) :
    ∑ i, g i = ∑ a : Fin n, g (ix1 a) := by
  refine Fintype.sum_equiv ⟨fun i => i 0, fun a => ix1 a, fun i => (eq_ix1 i).symm, fun _ => rfl⟩ _ _ (fun i => ?_)
  exact congrArg g (eq_ix1 i)

/-! ## Gather -/

section Gather
variable {α : Type}

/-- x[idx] for a vector x : [N] and indices [E, 1]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- x[idx] for the rows of a matrix x : [N, C] and indices [E, 1]. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowg_start0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (0 : Fin 2) = min (idx (ix2 e 0)).toInt.toNat (N - 1) := by
  unfold GatherDims.start
  rw [dif_pos (show (0 : Fin 2) ∈ (rowGatherDims N C E wf).startIndexMap from List.mem_singleton.mpr rfl)]
  have hsi : (rowGatherDims N C E wf).siIdx (ix2 e f) ⟨List.idxOf (0 : Fin 2) (rowGatherDims N C E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rowg_start1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (1 : Fin 2) = 0 := by
  unfold GatherDims.start
  rw [dif_neg (show (1 : Fin 2) ∉ (rowGatherDims N C E wf).startIndexMap from by
    intro h; exact absurd (List.mem_singleton.mp h) (by simp))]

theorem rowg_off0 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (0 : Fin 2) = 0 :=
  GatherDims.offCoord_eq_zero _ _ _ (fun h => ((GatherDims.mem_sKept _ _).mp h).1 (List.mem_singleton.mpr rfl))

theorem rowg_off1 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (1 : Fin 2) = f.val := by
  unfold GatherDims.offCoord
  rw [dif_pos ((GatherDims.mem_sKept _ _).mpr ⟨fun h => absurd (List.mem_singleton.mp h) (by simp), List.not_mem_nil⟩)]
  rfl

theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N C E wf) x idx (ix2 e f) = x (ix2 (clampRow N hN (idx (ix2 e 0))) f) := by
  unfold Host.gather
  congr 1
  funext a
  refine Fin.ext ?_
  match a with
  | ⟨0, _⟩ =>
    show (rowGatherDims N C E wf).start (ix2 e f) idx (0 : Fin 2) + (rowGatherDims N C E wf).batchCoord (ix2 e f) (0 : Fin 2)
      + (rowGatherDims N C E wf).offCoord (ix2 e f) (0 : Fin 2) = min (idx (ix2 e 0)).toInt.toNat (N - 1)
    rw [GatherDims.batchCoord_eq_zero _ _ _ List.not_mem_nil, rowg_start0, rowg_off0, Nat.add_zero]
  | ⟨1, _⟩ =>
    show (rowGatherDims N C E wf).start (ix2 e f) idx (1 : Fin 2) + (rowGatherDims N C E wf).batchCoord (ix2 e f) (1 : Fin 2)
      + (rowGatherDims N C E wf).offCoord (ix2 e f) (1 : Fin 2) = f.val
    rw [GatherDims.batchCoord_eq_zero _ _ _ List.not_mem_nil, rowg_start1, rowg_off1, Nat.add_zero, Nat.zero_add]

end Gather

/-! ## Scatter-add at the ideal instance -/

section Scatter
variable {φ : FTy}

/-- zeros[N].at[idx].add(upd) for updates [E] and indices [E, 1]. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vec_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx (0 : Fin 1) = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vec_window {N E : Nat} (wf : ScatterDims.WF ⟨1, ![N]⟩ ⟨2, ![E, 1]⟩ ⟨1, ![E]⟩ [] [0] [0] 1) (e : Fin E) :
    (vecScatterDims N E wf).window (ix1 e) (0 : Fin 1) = 0 := by
  unfold ScatterDims.window
  rw [dif_neg (show (0 : Fin 1) ∉ (vecScatterDims N E wf).sKept from fun h =>
    (List.mem_filter.mp h).2 |> fun h2 => by simp at h2)]

/-- Update e lands on entry n exactly when its start index, read signed, is n. -/
theorem vec_lands_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  split
  · rename_i h
    rw [Option.some.injEq]
    constructor
    · intro heq
      have h0 := congrArg (fun (i : (⟨1, ![N]⟩ : Shape).Idx) => (i 0).val) heq
      simp only [vec_start, vec_window] at h0
      have := (h 0).1
      rw [vec_start, vec_window] at this
      show (idx (ix2 e 0)).toInt = ((n.val : Nat) : Int)
      have hn : ((ix1 n : (⟨1, ![N]⟩ : Shape).Idx) 0).val = n.val := rfl
      omega
    · intro ht
      funext a
      obtain rfl : a = 0 := Subsingleton.elim _ _
      refine Fin.ext ?_
      show ((vecScatterDims N E wf).start (ix1 e) idx 0 + ((vecScatterDims N E wf).window (ix1 e) 0 : Nat)).toNat = n.val
      rw [vec_start, vec_window, ht]
      simp
  · rename_i h
    constructor
    · intro heq; exact absurd heq (by simp)
    · intro ht
      refine absurd (fun a => ?_) h
      obtain rfl : a = 0 := Subsingleton.elim _ _
      rw [vec_start, vec_window, ht]
      have : n.val < N := n.isLt
      constructor
      · simp
      · show ((n.val : Int) + ((0 : Nat) : Int)) < ((N : Nat) : Int)
        omega

theorem scatterAdd_vec_apply {N E w : Nat} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e : Fin E, if (idx (ix2 e 0)).toInt = (n.val : Int) then upd (ix1 e) else 0 := by
  show Ideal.hostScatterAdd (vecScatterDims N E wf) x idx upd (ix1 n) = _
  unfold Ideal.hostScatterAdd
  congr 1
  rw [Finset.sum_filter, sum_idx1]
  refine Finset.sum_congr rfl (fun e _ => ?_)
  simp only [vec_lands_iff]

/-- zeros[N, C].at[idx].add(upd) for update rows [E, C] and indices [E, 1]. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem row_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (0 : Fin 2) = (idx (ix2 e 0)).toInt := by
  unfold ScatterDims.start
  rw [dif_pos (show (0 : Fin 2) ∈ (rowScatterDims N C E wf).scatterDimsToOperandDims from List.mem_singleton.mpr rfl)]
  have hsi : (rowScatterDims N C E wf).siIdx (ix2 e f) ⟨List.idxOf (0 : Fin 2) (rowScatterDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem row_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (1 : Fin 2) = 0 := by
  unfold ScatterDims.start
  rw [dif_neg (show (1 : Fin 2) ∉ (rowScatterDims N C E wf).scatterDimsToOperandDims from fun h =>
    absurd (List.mem_singleton.mp h) (by simp))]

theorem row_window0 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (0 : Fin 2) = 0 := by
  unfold ScatterDims.window
  rw [dif_neg (show (0 : Fin 2) ∉ (rowScatterDims N C E wf).sKept from fun h =>
    (List.mem_filter.mp h).2 |> fun h2 => by simp at h2)]

theorem row_window1 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (1 : Fin 2) = f.val := by
  unfold ScatterDims.window
  rw [dif_pos (show (1 : Fin 2) ∈ (rowScatterDims N C E wf).sKept from
    List.mem_filter.mpr ⟨List.mem_finRange _, by simp⟩)]
  rfl

/-- Update (e, f') lands on entry (n, f) exactly when row e's start index, read signed, is n, and f' = f. -/
theorem row_lands_iff {N C E w : Nat} (wf : ScatterDims.WF ⟨2, ![N, C]⟩ ⟨2, ![E, 1]⟩ ⟨2, ![E, C]⟩ [1] [0] [0] 1)
    (idx : IVec ⟨2, ![E, 1]⟩ w) (e : Fin E) (f' : Fin C) (n : Fin N) (f : Fin C) :
    (rowScatterDims N C E wf).resultIdx? (ix2 e f') idx = some (ix2 n f)
      ↔ (idx (ix2 e 0)).toInt = (n.val : Int) ∧ f' = f := by
  unfold ScatterDims.resultIdx?
  split
  · rename_i h
    rw [Option.some.injEq]
    constructor
    · intro heq
      have h0 := congrArg (fun (i : (⟨2, ![N, C]⟩ : Shape).Idx) => (i 0).val) heq
      have h1 := congrArg (fun (i : (⟨2, ![N, C]⟩ : Shape).Idx) => (i 1).val) heq
      simp only [row_start0, row_window0, row_start1, row_window1] at h0 h1
      have hp := (h 0).1
      rw [row_start0, row_window0] at hp
      have hn : ((ix2 n f : (⟨2, ![N, C]⟩ : Shape).Idx) 0).val = n.val := rfl
      have hf : ((ix2 n f : (⟨2, ![N, C]⟩ : Shape).Idx) 1).val = f.val := rfl
      refine ⟨?_, Fin.ext ?_⟩
      · show (idx (ix2 e 0)).toInt = ((n.val : Nat) : Int)
        omega
      · omega
    · rintro ⟨ht, rfl⟩
      funext a
      refine Fin.ext ?_
      match a with
      | ⟨0, _⟩ =>
        show ((rowScatterDims N C E wf).start (ix2 e f') idx 0 + ((rowScatterDims N C E wf).window (ix2 e f') 0 : Nat)).toNat = n.val
        rw [row_start0, row_window0, ht]; simp
      | ⟨1, _⟩ =>
        show ((rowScatterDims N C E wf).start (ix2 e f') idx 1 + ((rowScatterDims N C E wf).window (ix2 e f') 1 : Nat)).toNat = f'.val
        rw [row_start1, row_window1]; simp
  · rename_i h
    constructor
    · intro heq; exact absurd heq (by simp)
    · rintro ⟨ht, rfl⟩
      refine absurd (fun a => ?_) h
      match a with
      | ⟨0, _⟩ =>
        show 0 ≤ (rowScatterDims N C E wf).start (ix2 e f') idx 0 + ((rowScatterDims N C E wf).window (ix2 e f') 0 : Nat)
          ∧ (rowScatterDims N C E wf).start (ix2 e f') idx 0 + ((rowScatterDims N C E wf).window (ix2 e f') 0 : Nat) < ((N : Nat) : Int)
        rw [row_start0, row_window0, ht]
        have : n.val < N := n.isLt
        constructor <;> simp <;> omega
      | ⟨1, _⟩ =>
        show 0 ≤ (rowScatterDims N C E wf).start (ix2 e f') idx 1 + ((rowScatterDims N C E wf).window (ix2 e f') 1 : Nat)
          ∧ (rowScatterDims N C E wf).start (ix2 e f') idx 1 + ((rowScatterDims N C E wf).window (ix2 e f') 1 : Nat) < ((C : Nat) : Int)
        rw [row_start1, row_window1]
        have : f'.val < C := f'.isLt
        constructor <;> simp <;> omega

theorem scatterAdd_rows_apply {N C E w : Nat} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (f : Fin C) :
    Host.scatterAdd (rowScatterDims N C E wf) x idx upd (ix2 n f)
      = x (ix2 n f) + ∑ e : Fin E, if (idx (ix2 e 0)).toInt = (n.val : Int) then upd (ix2 e f) else 0 := by
  show Ideal.hostScatterAdd (rowScatterDims N C E wf) x idx upd (ix2 n f) = _
  unfold Ideal.hostScatterAdd
  congr 1
  rw [Finset.sum_filter, sum_idx2]
  refine Finset.sum_congr rfl (fun e _ => ?_)
  simp only [row_lands_iff]
  by_cases ht : (idx (ix2 e 0)).toInt = (n.val : Int)
  · simp only [ht, true_and, if_true]
    rw [Finset.sum_ite_eq' Finset.univ f (fun f' => upd (ix2 e f'))]
    simp
  · simp only [ht, false_and, if_false, Finset.sum_const_zero]

end Scatter

end Idealize.ShloMosaic.LeadingAxis

end
-- ==== Proof.RefRead.lean ====
/-
  The reference program's result, read entry by entry.

  The reference is one straight line of host operations.  Its first layer's entry (r, j) is the rectified graph-layer
  feature of row r (`layer1_apply`), its second layer's entry (n, q) the unrectified one (`layer2_apply`), and its
  result at edge e the edge head `headCat` of the 576 numbers of row e of the side-by-side array
  (`head_apply`); that row is the source node's embedding, the destination node's embedding and the edge's own
  features (`cat_src`, `cat_dst`, `cat_edge`), a node's embedding being read through the gather at the edge's
  clamped index (`gather_src`, `gather_dst`).  The mean aggregations stay unopened.
-/
import proofs.«137966_j70282844831970_2_alg».proof.Proof.RefImports
import proofs.«137966_j70282844831970_2_alg».proof.Proof.Spec
import proofs.«137966_j70282844831970_2_alg».proof.Proof.LibLeadingAxis
import Idealize.ShloMosaic.Lib.ValueIdx
import Idealize.ShloMosaic.Lib.Pipeline.Value

set_option maxRecDepth 16384

noncomputable section

namespace Cert.EdgeNet.Ref

open Idealize.ShloMosaic Idealize.ShloMosaic.ValueIdx Cert.ReferenceIdeal Cert.ReferenceIdeal.Gen Cert.ReferenceIdeal.Read Cert.EdgeNet

variable (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x3 : (⟨S128x256, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256x256, .f32⟩ : BufTy).Contents (Elt Ideal)) (x8 : (⟨S256, .f32⟩ : BufTy).Contents (Elt Ideal)) (x9 : (⟨S576x256, .f32⟩ : BufTy).Contents (Elt Ideal)) (x10 : (⟨S256, .f32⟩ : BufTy).Contents (Elt Ideal)) (x11 : (⟨S256x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal))

/-! ## The composed index maps of the read-at-an-index lemmas, at coordinates -/

theorem l22 (r : Fin 50000) (j : Fin 256) (k : Fin 128) : lidx_main_v22 (ix2 r j) k = ix2 r k :=
  funext fun a => Fin.ext (by match a with | ⟨0, _⟩ => rfl | ⟨1, _⟩ => rfl)
theorem r22 (r : Fin 50000) (j : Fin 256) (k : Fin 128) : ridx_main_v22 (ix2 r j) k = ix2 k j :=
  funext fun a => Fin.ext (by match a with | ⟨0, _⟩ => rfl | ⟨1, _⟩ => rfl)
theorem l23 (r : Fin 50000) (j : Fin 256) (k : Fin 128) : lidx_main_v23 (ix2 r j) k = ix2 r k :=
  funext fun a => Fin.ext (by match a with | ⟨0, _⟩ => rfl | ⟨1, _⟩ => rfl)
theorem r23 (r : Fin 50000) (j : Fin 256) (k : Fin 128) : ridx_main_v23 (ix2 r j) k = ix2 k j :=
  funext fun a => Fin.ext (by match a with | ⟨0, _⟩ => rfl | ⟨1, _⟩ => rfl)
theorem i26 (r : Fin 50000) (j : Fin 256) : idx_main_v26 (ix2 r j) = ix2 (0 : Fin 1) j :=
  funext fun a => Fin.ext (by match a with | ⟨0, _⟩ => rfl | ⟨1, _⟩ => rfl)
theorem i25 (u : Fin 1) (j : Fin 256) : idx_main_v25 (ix2 u j) = ix1 j :=
  funext fun a => Fin.ext (by match a with | ⟨0, _⟩ => rfl)
theorem l47 (n : Fin 50000) (q i : Fin 256) : lidx_main_v47 (ix2 n q) i = ix2 n i :=
  funext fun a => Fin.ext (by match a with | ⟨0, _⟩ => rfl | ⟨1, _⟩ => rfl)
theorem r47 (n : Fin 50000) (q i : Fin 256) : ridx_main_v47 (ix2 n q) i = ix2 i q :=
  funext fun a => Fin.ext (by match a with | ⟨0, _⟩ => rfl | ⟨1, _⟩ => rfl)
theorem l48 (n : Fin 50000) (q i : Fin 256) : lidx_main_v48 (ix2 n q) i = ix2 n i :=
  funext fun a => Fin.ext (by match a with | ⟨0, _⟩ => rfl | ⟨1, _⟩ => rfl)
theorem r48 (n : Fin 50000) (q i : Fin 256) : ridx_main_v48 (ix2 n q) i = ix2 i q :=
  funext fun a => Fin.ext (by match a with | ⟨0, _⟩ => rfl | ⟨1, _⟩ => rfl)
theorem i51 (n : Fin 50000) (q : Fin 256) : idx_main_v51 (ix2 n q) = ix2 (0 : Fin 1) q :=
  funext fun a => Fin.ext (by match a with | ⟨0, _⟩ => rfl | ⟨1, _⟩ => rfl)
theorem i50 (u : Fin 1) (q : Fin 256) : idx_main_v50 (ix2 u q) = ix1 q :=
  funext fun a => Fin.ext (by match a with | ⟨0, _⟩ => rfl)
theorem i82 (e : Fin 400000) : idx_main_v82 (ix1 e) = ix2 e (0 : Fin 1) :=
  funext fun a => Fin.ext (by match a with | ⟨0, _⟩ => exact Nat.div_one _ | ⟨1, _⟩ => rfl)
theorem l78 (e : Fin 400000) (u : Fin 1) (j : Fin 128) : lidx_main_v78 (ix2 e u) j = ix2 e j :=
  funext fun a => Fin.ext (by match a with | ⟨0, _⟩ => rfl | ⟨1, _⟩ => rfl)
theorem r78 (e : Fin 400000) (u : Fin 1) (j : Fin 128) : ridx_main_v78 (ix2 e u) j = ix2 j u :=
  funext fun a => Fin.ext (by match a with | ⟨0, _⟩ => rfl | ⟨1, _⟩ => rfl)
theorem i80 (e : Fin 400000) (u : Fin 1) : idx_main_v80 (ix2 e u) = ix2 (0 : Fin 1) (0 : Fin 1) :=
  funext fun a => Fin.ext (by match a with | ⟨0, _⟩ => rfl | ⟨1, _⟩ => rfl)
theorem i79 (u v : Fin 1) : idx_main_v79 (ix2 u v) = ix1 (0 : Fin 1) :=
  funext fun a => Fin.ext (by match a with | ⟨0, _⟩ => rfl)
theorem l73 (e : Fin 400000) (j : Fin 128) (k : Fin 256) : lidx_main_v73 (ix2 e j) k = ix2 e k :=
  funext fun a => Fin.ext (by match a with | ⟨0, _⟩ => rfl | ⟨1, _⟩ => rfl)
theorem r73 (e : Fin 400000) (j : Fin 128) (k : Fin 256) : ridx_main_v73 (ix2 e j) k = ix2 k j :=
  funext fun a => Fin.ext (by match a with | ⟨0, _⟩ => rfl | ⟨1, _⟩ => rfl)
theorem i75 (e : Fin 400000) (j : Fin 128) : idx_main_v75 (ix2 e j) = ix2 (0 : Fin 1) j :=
  funext fun a => Fin.ext (by match a with | ⟨0, _⟩ => rfl | ⟨1, _⟩ => rfl)
theorem i74 (u : Fin 1) (j : Fin 128) : idx_main_v74 (ix2 u j) = ix1 j :=
  funext fun a => Fin.ext (by match a with | ⟨0, _⟩ => rfl)
theorem l68 (e : Fin 400000) (k : Fin 256) (q : Fin 576) : lidx_main_v68 (ix2 e k) q = ix2 e q :=
  funext fun a => Fin.ext (by match a with | ⟨0, _⟩ => rfl | ⟨1, _⟩ => rfl)
theorem r68 (e : Fin 400000) (k : Fin 256) (q : Fin 576) : ridx_main_v68 (ix2 e k) q = ix2 q k :=
  funext fun a => Fin.ext (by match a with | ⟨0, _⟩ => rfl | ⟨1, _⟩ => rfl)
theorem i70 (e : Fin 400000) (k : Fin 256) : idx_main_v70 (ix2 e k) = ix2 (0 : Fin 1) k :=
  funext fun a => Fin.ext (by match a with | ⟨0, _⟩ => rfl | ⟨1, _⟩ => rfl)
theorem i69 (u : Fin 1) (k : Fin 256) : idx_main_v69 (ix2 u k) = ix1 k :=
  funext fun a => Fin.ext (by match a with | ⟨0, _⟩ => rfl)

/-! ## The two graph layers -/

theorem layer1_apply (r : Fin 50000) (j : Fin 256) :
    val_main_v28 (F := Ideal) x0 x1 x3 x4 x5 (ix2 r j)
      = relu (sage (fun k : Fin 128 => val_main_v21 (F := Ideal) x0 x1 (ix2 r k)) (fun k => x0 (ix2 r k))
          (fun k => x3 (ix2 k j)) (fun k => x4 (ix2 k j)) (x5 (ix1 j))) := by
  rw [val_main_v28_apply, val_main_v27_apply, val_main_v24_apply, val_main_v22_apply, val_main_v23_apply,
    val_main_v26_apply, val_main_v25_apply, val_main_call0_v0_apply, val_main_call0_cst_apply]
  simp only [l22, r22, l23, r23, i26, i25]
  rfl

theorem layer2_apply (n : Fin 50000) (q : Fin 256) :
    val_main_v52 (F := Ideal) x0 x1 x3 x4 x5 x6 x7 x8 (ix2 n q)
      = sage (fun i : Fin 256 => val_main_v46 (F := Ideal) x0 x1 x3 x4 x5 (ix2 n i))
          (fun i => val_main_v28 (F := Ideal) x0 x1 x3 x4 x5 (ix2 n i)) (fun i => x6 (ix2 i q)) (fun i => x7 (ix2 i q))
          (x8 (ix1 q)) := by
  rw [val_main_v52_apply, val_main_v49_apply, val_main_v47_apply, val_main_v48_apply, val_main_v51_apply,
    val_main_v50_apply]
  simp only [l47, r47, l48, r48, i51, i50]
  rfl

/-! ## The edge head -/

theorem head_apply (e : Fin 400000) :
    val_main_v82 (F := Ideal) x0 x1 x2 x3 x4 x5 x6 x7 x8 x9 x10 x11 x12 x13 x14 (ix1 e)
      = headCat (fun q : Fin 576 => val_main_v67 (F := Ideal) x0 x1 x2 x3 x4 x5 x6 x7 x8 (ix2 e q))
          (fun q k => x9 (ix2 q k)) (fun k : Fin 256 => x10 (ix1 k)) (fun k j => x11 (ix2 k j))
          (fun j : Fin 128 => x12 (ix1 j)) (fun j => x13 (ix2 j (0 : Fin 1))) (x14 (ix1 (0 : Fin 1))) := by
  rw [val_main_v82_apply, i82, val_main_v81_apply, val_main_v78_apply, val_main_v80_apply, val_main_v79_apply]
  simp only [val_main_v77_apply, val_main_v76_apply, val_main_v73_apply, val_main_v75_apply, val_main_v74_apply,
    val_main_call2_v0_apply, val_main_call2_cst_apply, val_main_v72_apply, val_main_v71_apply, val_main_v68_apply,
    val_main_v70_apply, val_main_v69_apply, val_main_call1_v0_apply, val_main_call1_cst_apply,
    l78, r78, i80, i79, l73, r73, i75, i74, l68, r68, i70, i69]
  rfl

/-! ## The 576 numbers of an edge's row -/

theorem cat_src (e : Fin 400000) (q : Fin 256) :
    val_main_v67 (F := Ideal) x0 x1 x2 x3 x4 x5 x6 x7 x8 (ix2 e ⟨q.val, by omega⟩)
      = val_main_v59 (F := Ideal) x0 x1 x3 x4 x5 x6 x7 x8 (ix2 e q) := by
  unfold val_main_v67
  refine concatenate_apply_piece (t := S400000x576) (1 : Fin 2) _ _ _ 0 ?hk S400000x256 _ ?hx rfl 0 ?hpre (ix2 e q) (fun b hb => ?hi) ?ha
  case hk => show (0 : Nat) < 3; omega
  case hx => rfl
  case hpre => rfl
  case hi => match b with | ⟨0, _⟩ => rfl | ⟨1, _⟩ => exact absurd rfl hb
  case ha => exact Nat.zero_add _

theorem cat_dst (e : Fin 400000) (q : Fin 256) :
    val_main_v67 (F := Ideal) x0 x1 x2 x3 x4 x5 x6 x7 x8 (ix2 e ⟨256 + q.val, by omega⟩)
      = val_main_v66 (F := Ideal) x0 x1 x3 x4 x5 x6 x7 x8 (ix2 e q) := by
  unfold val_main_v67
  refine concatenate_apply_piece (t := S400000x576) (1 : Fin 2) _ _ _ 1 ?hk S400000x256 _ ?hx rfl 256 ?hpre (ix2 e q) (fun b hb => ?hi) ?ha
  case hk => show (1 : Nat) < 3; omega
  case hx => rfl
  case hpre => rfl
  case hi => match b with | ⟨0, _⟩ => rfl | ⟨1, _⟩ => exact absurd rfl hb
  case ha => rfl

theorem cat_edge (e : Fin 400000) (q : Fin 64) :
    val_main_v67 (F := Ideal) x0 x1 x2 x3 x4 x5 x6 x7 x8 (ix2 e ⟨512 + q.val, by omega⟩) = x2 (ix2 e q) := by
  unfold val_main_v67
  refine concatenate_apply_piece (t := S400000x576) (1 : Fin 2) _ _ _ 2 ?hk S400000x64 _ ?hx rfl 512 ?hpre (ix2 e q) (fun b hb => ?hi) ?ha
  case hk => show (2 : Nat) < 3; omega
  case hx => rfl
  case hpre => rfl
  case hi => match b with | ⟨0, _⟩ => rfl | ⟨1, _⟩ => exact absurd rfl hb
  case ha => rfl

/-! ## A node's embedding read through the gather -/

theorem gather_src (e : Fin 400000) (q : Fin 256) :
    val_main_v59 (F := Ideal) x0 x1 x3 x4 x5 x6 x7 x8 (ix2 e q)
      = val_main_v52 (F := Ideal) x0 x1 x3 x4 x5 x6 x7 x8
          (ix2 (LeadingAxis.clampRow 50000 (by decide) (val_main_v58 (F := Ideal) x1 (ix2 e (0 : Fin 1)))) q) := by
  unfold val_main_v59
  exact LeadingAxis.gather_rows_apply (by decide) gather_S50000x256_S400000x1_S400000x256_1_0_n_n_0_1_1256_wf _ _ e q

theorem gather_dst (e : Fin 400000) (q : Fin 256) :
    val_main_v66 (F := Ideal) x0 x1 x3 x4 x5 x6 x7 x8 (ix2 e q)
      = val_main_v52 (F := Ideal) x0 x1 x3 x4 x5 x6 x7 x8
          (ix2 (LeadingAxis.clampRow 50000 (by decide) (val_main_v65 (F := Ideal) x1 (ix2 e (0 : Fin 1)))) q) := by
  unfold val_main_v66
  exact LeadingAxis.gather_rows_apply (by decide) gather_S50000x256_S400000x1_S400000x256_1_0_n_n_0_1_1256_wf _ _ e q

end Cert.EdgeNet.Ref

end
-- ==== Proof.LibLifts.lean ====
/-
  Lifting a vector to a matrix with one unit axis, and back, read at coordinates (any extents):
  * a vector [a] lifted by broadcast_in_dim along axis 0 to the column [a, 1] reads, at (n, u), the vector at n;
  * a column [a, 1] reshaped to the vector [a] reads, at n, the column at (n, 0);
  * a vector [b] lifted by broadcast_in_dim along axis 1 to the row [1, b] reads, at (u, f), the vector at f.
-/
import Idealize.ShloMosaic.Lib.Pipeline.Value
import Idealize.ShloMosaic.Lib.ValueIdx

namespace Idealize.ShloMosaic.Lifts

open Idealize.ShloMosaic Idealize.ShloMosaic.ValueIdx

variable {α : Type}

/-- A vector lifted to a column. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (n : Fin a) (u : Fin 1) :
    broadcastInDim ⟨2, ![a, 1]⟩ ![0] h x (ix2 n u) = x (ix1 n) := by
  refine broadcastInDim_apply _ h x (ix2 n u) (ix1 n) fun ax => ?_
  match ax with
  | ⟨0, _⟩ =>
    show n.val = if a = 1 then 0 else n.val
    split
    · have := n.isLt; omega
    · rfl

/-- A column reshaped to a vector. -/
theorem shapeCast_a1_a_apply {a : ℕ} (x : (⟨2, ![a, 1]⟩ : Shape).Idx → α)
    (h : (⟨2, ![a, 1]⟩ : Shape).ShapeCasts ⟨1, ![a]⟩) (n : Fin a) :
    shapeCast ⟨1, ![a]⟩ x h (ix1 n) = x (ix2 n (0 : Fin 1)) :=
  shapeCast_apply x h _ _ (by
    rw [Shape.rowMajor_val_two, Shape.rowMajor_val_one]
    show n.val * 1 + 0 = n.val
    omega)

/-- A vector lifted to a row. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (f : Fin b) :
    broadcastInDim ⟨2, ![1, b]⟩ ![1] h x (ix2 u f) = x (ix1 f) := by
  refine broadcastInDim_apply _ h x (ix2 u f) (ix1 f) fun ax => ?_
  match ax with
  | ⟨0, _⟩ =>
    show f.val = if b = 1 then 0 else f.val
    split
    · have := f.isLt; omega
    · rfl

end Idealize.ShloMosaic.Lifts
-- ==== Proof.Bridge.lean ====
/-
  The kernel program's result and the reference's are one function of the fifteen arguments.

  * The first graph layer is the same formula on both sides, so the two hidden arrays are equal (`hidden_eq`); the mean
    aggregations are the same host operations on both sides and are compared whole, never opened.
  * A node's second-layer embedding (n, q) is the same formula on both sides (`emb_apply`).  The kernel never stores it:
    it stores the embedding's product with the first and with the second 256 rows of the head's 576 x 256 weight
    matrix, per node (`proj_apply`), and gathers those along the edges; a gather of rows commutes with a product taken
    row by row, so the gathered partial products are the partial sums over the source node's 256 and the destination
    node's 256 positions of the reference's 576-term contraction (`hP`, `hD` below); the edge's own 64 features give
    the third partial sum.  `head_eq` (a finite sum split in three, only commutativity and associativity of addition on
    the extended reals) joins the two arrangements.
  * The last layer is an N = 1 matrix product on one side and a row sum of entrywise products with the transposed
    weights on the other: the same finite sum.
-/
import proofs.«137966_j70282844831970_2_alg».proof.Proof.KHost
import proofs.«137966_j70282844831970_2_alg».proof.Proof.RefRead
import proofs.«137966_j70282844831970_2_alg».proof.Proof.LibLifts
import Idealize.ShloMosaic.Lib.ValueLayout

set_option maxRecDepth 16384

noncomputable section

namespace Cert.EdgeNet.Bridge

open Idealize.ShloMosaic Idealize.ShloMosaic.ValueIdx Cert.KernelIdeal Cert.KernelIdeal.Gen
open Cert.EdgeNet Cert.EdgeNet.K Cert.EdgeNet.Finals Cert.EdgeNet.KHost Cert.ReferenceIdeal.Read

variable (x0 : AF S50000x128) (x1 : AI S2x400000) (x2 : AF S400000x64) (x3 x4 : AF S128x256) (x5 : AF S256)
  (x6 x7 : AF S256x256) (x8 : AF S256) (x9 : AF S576x256) (x10 : AF S256) (x11 : AF S256x128) (x12 : AF S128)
  (x13 : AF S128x1) (x14 : AF S1)

/-! ## The three whole-array functions at coordinates -/

theorem layer1_ix2 (A0 A1 : S50000x128.Idx → Elt Ideal .bf16) (A2 A3 : S128x256.Idx → Elt Ideal .bf16)
    (A4 : S1x256.Idx → Elt Ideal .f32) (r : Fin 50000) (j : Fin 256) :
    layer1 A0 A1 A2 A3 A4 (ix2 r j)
      = relu (sage (fun k : Fin 128 => A0 (ix2 r k)) (fun k => A1 (ix2 r k)) (fun k => A2 (ix2 k j)) (fun k => A3 (ix2 k j))
          (A4 (ix2 (0 : Fin 1) j))) := rfl

theorem projArr_ix2 (A0 A1 : S50000x256.Idx → Elt Ideal .bf16) (A2 A3 : S256x256.Idx → Elt Ideal .bf16)
    (A4 : S1x256.Idx → Elt Ideal .f32) (W : S256x256.Idx → Elt Ideal .bf16) (n : Fin 50000) (k : Fin 256) :
    projArr A0 A1 A2 A3 A4 W (ix2 n k)
      = ∑ q : Fin 256, sage (fun i : Fin 256 => A0 (ix2 n i)) (fun i => A1 (ix2 n i)) (fun i => A2 (ix2 i q))
          (fun i => A3 (ix2 i q)) (A4 (ix2 (0 : Fin 1) q)) * W (ix2 q k) := rfl

theorem headArr_ix2 (A0 A1 : S400000x256.Idx → Elt Ideal .bf16) (A2 : S400000x64.Idx → Elt Ideal .f32)
    (A3 : S64x256.Idx → Elt Ideal .bf16) (A4 : S1x256.Idx → Elt Ideal .f32) (A5 : S256x128.Idx → Elt Ideal .bf16)
    (A6 A7 : S1x128.Idx → Elt Ideal .f32) (A8 : S1x1.Idx → Elt Ideal .f32) (e : Fin 400000) :
    headArr A0 A1 A2 A3 A4 A5 A6 A7 A8 (ix2 e (0 : Fin 1))
      = headSplit (fun k : Fin 256 => A0 (ix2 e k)) (fun k => A1 (ix2 e k)) (fun q : Fin 64 => A2 (ix2 e q))
          (fun q k => A3 (ix2 q k)) (fun k => A4 (ix2 (0 : Fin 1) k)) (fun k j => A5 (ix2 k j))
          (fun j : Fin 128 => A6 (ix2 (0 : Fin 1) j)) (fun j => A7 (ix2 (0 : Fin 1) j)) (A8 (ix2 (0 : Fin 1) (0 : Fin 1))) := rfl

/-! ## The shared host operations, compared whole -/

theorem mean1_eq : val_main_v21 (F := Ideal) x0 x1 = meanAgg128 x0 (srcIds x1) (dstIds x1) (degs (dstIds x1)) := rfl

theorem mean2_eq : val_main_v46 (F := Ideal) x0 x1 x3 x4 x5
    = meanAgg256 (val_main_v28 (F := Ideal) x0 x1 x3 x4 x5) (srcIds x1) (dstIds x1) (degs (dstIds x1)) := rfl

theorem src_col : val_main_v58 (F := Ideal) x1 = wrapCol (srcIds x1) := rfl

theorem dst_col : val_main_v65 (F := Ideal) x1 = wrapCol (dstIds x1) := rfl

/-! ## The first layer -/

theorem hidden_apply (r : Fin 50000) (j : Fin 256) :
    hiddenK x0 x1 x3 x4 x5 (ix2 r j)
      = relu (sage (fun k : Fin 128 => meanAgg128 x0 (srcIds x1) (dstIds x1) (degs (dstIds x1)) (ix2 r k))
          (fun k => x0 (ix2 r k)) (fun k => x3 (ix2 k j)) (fun k => x4 (ix2 k j)) (x5 (ix1 j))) := by
  have e : shapeCast S1x256 x5 shapeCasts_S256_S1x256 (ix2 (0 : Fin 1) j) = x5 (ix1 j) := shapeCast_a_1a_apply x5 _ 0 j
  unfold hiddenK
  rw [layer1_ix2, e]
  simp only [bf16of, truncf_apply]

/-- The two programs' hidden arrays are equal. -/
theorem hidden_eq : hiddenK x0 x1 x3 x4 x5 = val_main_v28 (F := Ideal) x0 x1 x3 x4 x5 := by
  funext i
  obtain ⟨r, j, rfl⟩ : ∃ (r : Fin 50000) (j : Fin 256), i = ix2 r j := ⟨i 0, i 1, eq_ix2 i⟩
  rw [hidden_apply, Ref.layer1_apply, mean1_eq]

/-! ## The second layer and the per-node partial products -/

theorem proj_apply (H : AF S50000x256) (W : AF S256x256) (n : Fin 50000) (k : Fin 256) :
    projK H x1 x6 x7 x8 W (ix2 n k)
      = ∑ q : Fin 256, sage (fun i : Fin 256 => meanAgg256 H (srcIds x1) (dstIds x1) (degs (dstIds x1)) (ix2 n i))
          (fun i => H (ix2 n i)) (fun i => x6 (ix2 i q)) (fun i => x7 (ix2 i q)) (x8 (ix1 q)) * W (ix2 q k) := by
  have e : ∀ q : Fin 256, shapeCast S1x256 x8 shapeCasts_S256_S1x256 (ix2 (0 : Fin 1) q) = x8 (ix1 q) :=
    fun q => shapeCast_a_1a_apply x8 _ 0 q
  unfold projK
  rw [projArr_ix2]
  simp only [bf16of, truncf_apply, e]

theorem emb_apply (n : Fin 50000) (q : Fin 256) :
    sage (fun i : Fin 256 => meanAgg256 (val_main_v28 (F := Ideal) x0 x1 x3 x4 x5) (srcIds x1) (dstIds x1) (degs (dstIds x1)) (ix2 n i))
        (fun i => val_main_v28 (F := Ideal) x0 x1 x3 x4 x5 (ix2 n i)) (fun i => x6 (ix2 i q)) (fun i => x7 (ix2 i q)) (x8 (ix1 q))
      = val_main_v52 (F := Ideal) x0 x1 x3 x4 x5 x6 x7 x8 (ix2 n q) := by
  rw [Ref.layer2_apply, mean2_eq]

/-! ## Layout operations of the third stretch, at coordinates -/

theorem kgather (Pm : AB S50000x256) (col : AI S400000x1) (e : Fin 400000) (k : Fin 256) :
    Host.gather gather_S50000x256_S400000x1_S400000x256_1_0_n_n_0_1_1256 Pm col (ix2 e k)
      = Pm (ix2 (LeadingAxis.clampRow 50000 (by decide) (col (ix2 e (0 : Fin 1)))) k) :=
  LeadingAxis.gather_rows_apply (by decide) gather_S50000x256_S400000x1_S400000x256_1_0_n_n_0_1_1256_wf Pm col e k

theorem band0_apply (q k : Fin 256) : band0 x9 (ix2 q k) = x9 (ix2 ⟨q.val, by omega⟩ k) :=
  slice2_axis0_apply 0 x9 slices_S576x256_S256x256_0_0 q k ⟨q.val, by omega⟩ (Nat.zero_add _).symm

theorem band1_apply (q k : Fin 256) : band1 x9 (ix2 q k) = x9 (ix2 ⟨256 + q.val, by omega⟩ k) :=
  slice2_axis0_apply 256 x9 slices_S576x256_S256x256_256_0 q k ⟨256 + q.val, by omega⟩ rfl

theorem band2_apply (i : Fin 64) (k : Fin 256) : band2 x9 (ix2 i k) = x9 (ix2 ⟨512 + i.val, by omega⟩ k) :=
  slice2_axis0_apply 512 x9 slices_S576x256_S64x256_512_0 i k ⟨512 + i.val, by omega⟩ rfl

/-- The head's output column at edge `e`, from the two per-node arrays. -/
theorem logits_apply (ps pd : AB S50000x256) (e : Fin 400000) :
    logitsK ps pd x1 x2 x9 x10 x11 x12 x13 x14 (ix2 e (0 : Fin 1))
      = headSplit (fun k : Fin 256 => ps (ix2 (LeadingAxis.clampRow 50000 (by decide) (wrapCol (srcIds x1) (ix2 e (0 : Fin 1)))) k))
          (fun k => pd (ix2 (LeadingAxis.clampRow 50000 (by decide) (wrapCol (dstIds x1) (ix2 e (0 : Fin 1)))) k))
          (fun q : Fin 64 => x2 (ix2 e q)) (fun i k => x9 (ix2 ⟨512 + i.val, by omega⟩ k)) (fun k => x10 (ix1 k))
          (fun k j => x11 (ix2 k j)) (fun j : Fin 128 => x12 (ix1 j)) (fun j => x13 (ix2 j (0 : Fin 1))) (x14 (ix1 (0 : Fin 1))) := by
  have g1 : (fun k : Fin 256 => Host.gather gather_S50000x256_S400000x1_S400000x256_1_0_n_n_0_1_1256 ps (wrapCol (srcIds x1)) (ix2 e k))
      = fun k => ps (ix2 (LeadingAxis.clampRow 50000 (by decide) (wrapCol (srcIds x1) (ix2 e (0 : Fin 1)))) k) :=
    funext fun k => kgather ps _ e k
  have g2 : (fun k : Fin 256 => Host.gather gather_S50000x256_S400000x1_S400000x256_1_0_n_n_0_1_1256 pd (wrapCol (dstIds x1)) (ix2 e k))
      = fun k => pd (ix2 (LeadingAxis.clampRow 50000 (by decide) (wrapCol (dstIds x1) (ix2 e (0 : Fin 1)))) k) :=
    funext fun k => kgather pd _ e k
  have g3 : (fun (i : Fin 64) (k : Fin 256) => extractStridedSlice S64x256 ![512, 0] x9 slices_S576x256_S64x256_512_0 (ix2 i k))
      = fun i k => x9 (ix2 ⟨512 + i.val, by omega⟩ k) :=
    funext fun i => funext fun k => band2_apply x9 i k
  have g4 : (fun k : Fin 256 => shapeCast S1x256 x10 shapeCasts_S256_S1x256 (ix2 (0 : Fin 1) k)) = fun k => x10 (ix1 k) :=
    funext fun k => shapeCast_a_1a_apply x10 _ 0 k
  have g5 : (fun j : Fin 128 => shapeCast S1x128 x12 shapeCasts_S128_S1x128 (ix2 (0 : Fin 1) j)) = fun j => x12 (ix1 j) :=
    funext fun j => shapeCast_a_1a_apply x12 _ 0 j
  have g6 : (fun j : Fin 128 => transpose S1x128 [1, 0] x13 transposes_S128x1_S1x128_1_0 (ix2 (0 : Fin 1) j)) = fun j => x13 (ix2 j (0 : Fin 1)) :=
    funext fun j => transpose_ix2_apply x13 _ 0 j
  have g7 : shapeCast S1x1 x14 shapeCasts_S1_S1x1 (ix2 (0 : Fin 1) (0 : Fin 1)) = x14 (ix1 (0 : Fin 1)) :=
    shapeCast_a_1a_apply x14 _ 0 0
  unfold logitsK
  rw [headArr_ix2]
  simp only [bf16of, truncf_apply]
  rw [g1, g2, g3, g4, g5, g6, g7]

/-! ## The result -/

theorem result_apply (e : Fin 400000) :
    resultK x0 x1 x2 x3 x4 x5 x6 x7 x8 x9 x10 x11 x12 x13 x14 (ix1 e) = val_main_v82 (F := Ideal) x0 x1 x2 x3 x4 x5 x6 x7 x8 x9 x10 x11 x12 x13 x14 (ix1 e) := by
  rw [Ref.head_apply]
  unfold resultK
  rw [Lifts.shapeCast_a1_a_apply, logits_apply]
  refine head_eq _ _ _ _ _ _ _ _ _ _ _ (fun k => ?_) (fun k => ?_) (fun k => ?_)
  · -- the source node's partial product is the contraction over the first 256 positions
    rw [proj_apply]
    refine Finset.sum_congr rfl fun q _ => ?_
    rw [hidden_eq, emb_apply, Ref.cat_src, Ref.gather_src, src_col]
    show _ * band0 x9 (ix2 q k) = _
    rw [band0_apply]
  · -- the destination node's is the contraction over the next 256
    rw [proj_apply]
    refine Finset.sum_congr rfl fun q _ => ?_
    rw [hidden_eq, emb_apply, Ref.cat_dst, Ref.gather_dst, dst_col]
    show _ * band1 x9 (ix2 q k) = _
    rw [band1_apply]
  · -- the edge's own features are the last 64 positions
    refine Finset.sum_congr rfl fun q _ => ?_
    rw [Ref.cat_edge]

/-- The kernel program's result and the reference's, as arrays. -/
theorem result_fun_eq : resultK x0 x1 x2 x3 x4 x5 x6 x7 x8 x9 x10 x11 x12 x13 x14 = val_main_v82 (F := Ideal) x0 x1 x2 x3 x4 x5 x6 x7 x8 x9 x10 x11 x12 x13 x14 := by
  funext i
  obtain ⟨e, rfl⟩ : ∃ e : Fin 400000, i = ix1 e := ⟨i 0, eq_ix1 i⟩
  exact result_apply x0 x1 x2 x3 x4 x5 x6 x7 x8 x9 x10 x11 x12 x13 x14 e

end Cert.EdgeNet.Bridge

end
-- ==== Proof.lean ====
/-
  A two-layer graph network (mean aggregation over incoming edges) followed by an edge head of three dense layers,
  computed by a program of three Pallas kernels among host operations, against a plain reference.

  At the ideal reading (floats are extended reals, every operation exact, a change of float format the identity) the
  two programs compute one function of the fifteen argument arrays.  The first graph layer is the same formula on both
  sides.  For the rest the kernel program rearranges the reference's arithmetic: instead of gathering each edge's two
  end-node embeddings, laying them beside the edge's own features and multiplying the 576 numbers by one 576 x 256
  matrix, it multiplies every node's embedding once by the first and by the second 256 rows of that matrix, gathers the
  two products along the edges and adds the edge features' product with the last 64 rows; and it replaces the last
  128 -> 1 matrix product by a row sum of entrywise products.  A gather of rows commutes with a product formed row by
  row, a finite sum over 576 positions is the sum over its three stretches, and an N = 1 matrix product is a row sum:
  only commutativity and associativity of addition on the extended reals are used, so the inputs' finiteness is never
  needed.  The scatter/gather mean aggregations are the same host operations in both programs and are compared whole.

  The three frames: the two kernel programs' are the generated frame certificates; the reference's is its generated run
  with the result dropped.  The ideal pass rewrote nothing, so `preserves` is `True`.
-/
import proofs.«137966_j70282844831970_2_alg».proof.Defs
import proofs.«137966_j70282844831970_2_alg».proof.Proof.Gen.Kernel
import proofs.«137966_j70282844831970_2_alg».proof.Proof.Gen.Kernel.Frame
import proofs.«137966_j70282844831970_2_alg».proof.Proof.Gen.KernelIdeal
import proofs.«137966_j70282844831970_2_alg».proof.Proof.Gen.KernelIdeal.Frame
import proofs.«137966_j70282844831970_2_alg».proof.Proof.Gen.ReferenceIdeal
import proofs.«137966_j70282844831970_2_alg».proof.Proof.Gen.Pre_finite_inputs
import proofs.«137966_j70282844831970_2_alg».proof.Proof.RefImports
import proofs.«137966_j70282844831970_2_alg».proof.Proof.KRun
import proofs.«137966_j70282844831970_2_alg».proof.Proof.KHost
import proofs.«137966_j70282844831970_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at `resultK` of the (agreeing) argument arrays. -/
theorem algebraic : Cert.algebraic_KernelIdeal_ReferenceIdeal := by
  intro m ρ m' ρ' _ hagree
  refine ⟨fun c => Cert.EdgeNet.KHost.resultK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.EdgeNet.KHost.result_eq m ρ c), (h c).2⟩)
      (Cert.KernelIdeal.Run.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v82_eq, e0, e1, e2, e3, e4, e5, e6, e7, e8, e9, e10, e11, e12, e13, e14]
    exact (Cert.EdgeNet.Bridge.result_fun_eq _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
